-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x256x128x128 : Shape := ⟨4, ![8, 256, 128, 128]⟩
abbrev S16384x2048 : Shape := ⟨2, ![16384, 2048]⟩
abbrev S16x2048 : Shape := ⟨2, ![16, 2048]⟩
abbrev S512x2048 : Shape := ⟨2, ![512, 2048]⟩
abbrev S8x2048 : Shape := ⟨2, ![8, 2048]⟩
abbrev S1x2048 : Shape := ⟨2, ![1, 2048]⟩
abbrev S2048 : Shape := ⟨1, ![2048]⟩
abbrev S_ : Shape := ⟨0, ![]⟩
abbrev S16x128 : Shape := ⟨2, ![16, 128]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 35
  | .vmem => 16
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S16384x2048, .f32⟩
  | .hbm, ⟨3, _⟩ => ⟨S16384x2048, .f32⟩
  | .hbm, ⟨4, _⟩ => ⟨S16x2048, .f32⟩
  | .hbm, ⟨5, _⟩ => ⟨S16x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S16x128, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S8x128, .f32⟩
  | .local _ .vmem, ⟨15, _⟩ => ⟨S8x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S8x256x128x128_S16384x2048 : S8x256x128x128.ShapeCasts S16384x2048
  inb_S8x2048_S8x2048_0_0 : ∀ a, (![0, 0] : Fin 2 → Nat) a + S8x2048.size a ≤ S8x2048.size a
  h_S8x2048 : 0 < S8x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S8x2048_S1x2048_0_0 : ∀ a, (![0, 0] : Fin 2 → Nat) a + S1x2048.size a ≤ S8x2048.size a
  h_S1x2048 : 0 < S1x2048.numel
  shapeCasts_S1x2048_S1x2048 : S1x2048.ShapeCasts S1x2048
  reduces_S512x2048_S2048 : S512x2048.Reduces [0] S2048
  shapeCasts_S2048_S1x2048 : S2048.ShapeCasts S1x2048
  slices_S16x2048_S1x2048_0_0 : S16x2048.Slices ![0, 0] S1x2048
  slices_S16x2048_S1x2048_8_0 : S16x2048.Slices ![8, 0] S1x2048
  bcast_S_S1x2048 : S_.BroadcastsInDim S1x2048 (![] : Fin 0 → Fin S1x2048.rank)
  inb_S8x128_S8x128_0_0 : ∀ a, (![0, 0] : Fin 2 → Nat) a + S8x128.size a ≤ S8x128.size a
  h_S8x128 : 0 < S8x128.numel
  inb_S1x2048_S1x2048_0_0 : ∀ a, (![0, 0] : Fin 2 → Nat) a + S1x2048.size a ≤ S1x2048.size a
  broadcasts_S1x2048_S512x2048 : S1x2048.Broadcasts S512x2048
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x2048.size a
  hwx0_2 : ∀ i : grid0.Coords, EltTy.bits .f32 = 32 ∨ (Rect.block (s := S16x2048) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S16x2048.size a
  hwx0_3 : ∀ i : grid0.Coords, EltTy.bits .f32 = 32 ∨ (Rect.block (s := S16x2048) S8x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S16x128.size a
  hwx1_4 : ∀ i : grid1.Coords, EltTy.bits .f32 = 32 ∨ (Rect.block (s := S16x128) S8x128.size (cc1_transform_4 i) (hinb1_4 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x256x128x128 : Shape := ⟨4, ![8, 256, 128, 128]⟩
abbrev S16384x2048 : Shape := ⟨2, ![16384, 2048]⟩
abbrev S_ : Shape := ⟨0, ![]⟩
abbrev S2048 : Shape := ⟨1, ![2048]⟩
abbrev S1x2048 : Shape := ⟨2, ![1, 2048]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S2048x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  shapeCasts_S8x256x128x128_S16384x2048 : S8x256x128x128.ShapeCasts S16384x2048
  reducesTo_S16384x2048_S2048_d0 : S16384x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16384x2048_0_1 : S1x2048.BroadcastsInDim S16384x2048 (![0, 1] : Fin 2 → Fin S16384x2048.rank)
  reducesTo_S2048x2048_S_d0_1 : S2048x2048.ReducesTo [0, 1] S_
  dot_S16384x2048_S16384x2048_S2048x2048_0_0_1_1_n_n_wf : DotDims.WF S16384x2048 S16384x2048 S2048x2048 [0] [0] [1] [1] [] []

variable [Facts₀]

def dot_S16384x2048_S16384x2048_S2048x2048_0_0_1_1_n_n : DotDims S16384x2048 S16384x2048 S2048x2048 where
  lhsContracting := [0]
  rhsContracting := [0]
  lhsNonContracting := [1]
  rhsNonContracting := [1]
  lhsBatch := []
  rhsBatch := []
  wf := dot_S16384x2048_S16384x2048_S2048x2048_0_0_1_1_n_n_wf

class Facts : Prop extends Facts₀ where

variable [Facts]
-- ==== Proof.KernelRun.lean ====
/-
  The kernel program's run with its RESULT named. The program is five segments: a host stretch (the two reshapes), the
  first grid of kernel calls (column sums of squares, one partial per half of the rows), a host stretch (the two
  partials added, square root, plus the small constant, reciprocal), the second grid (row sums of the scaled entries,
  their products accumulated, one partial per half), and a last host stretch (the two partials added, divided by the
  count, squared). Every weakly fair execution runs through the five segments, and after the last one every unscoped
  buffer of a core holds the last boundary's contents `W5`: the fold of the three host stretches and the two grids'
  write-backs from the launch memory. The frame claim reads only the two argument buffers off that state; here the
  scalar result buffer is read off it as well, so that the value the program returns is `W5` at that buffer — a pure
  term the later modules open stretch by stretch.
-/
import proofs.«122433_j8693013807330_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; at the end the result buffer holds
    the last boundary's contents at that buffer, and the two arguments are as launched. -/
theorem run_result : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       (h c _ (mem_uc main_arg0 (by decide))).trans (W5_main_arg0 m ρ c),
       (h c _ (mem_uc main_arg1 (by decide))).trans (W5_main_arg1 m ρ c)⟩)

end Cert.KernelIdeal.KRun

end
-- ==== Proof.Blocks.lean ====
/-
  Where a window's block sits in its array. Both grids have 32 points, two runs of sixteen. At point `t` the two input
  windows of either grid hold rows `512·t … 512·t + 511` of the flattened inputs (all 2048 columns); the two one-row
  windows of the second grid hold their whole one-row array at every point; the output windows hold block `t / 16` of
  their array (rows `8·(t/16) … 8·(t/16) + 7`), so that the first run of sixteen points shares block 0 and the second
  run block 1. The index maps are decided once over the 32 points; a block's coordinate on an axis is always
  (block index) × (block extent) + (the coordinate inside the block).
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The first grid's index maps at every point: input blocks move one tile per point, output blocks one per run. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

/-- The second grid's index maps at every point. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 16 ∧ win1_4.index t (1 : Fin 2) = 0 :=
  (by decide +kernel : ∀ t : Fin grid1.N, _)

/-- First grid, first input: entry `(r, j)` of the tile at point `t` is entry `(512·t + r, j)` of the flattened input. -/
theorem tile0_x (c : Dev nD) (t : Fin cfg0.N) (r : Fin 512) (j : Fin 2048) (h : 512 * t.val + r.val < 16384) :
    (iblk0 V c 0 t : Vec F S512x2048 .f32) (ix2 r j) = (V c main_v0 : Vec F S16384x2048 .f32) (ix2 ⟨512 * t.val + r.val, h⟩ j) := by
  obtain ⟨e0, e1, -⟩ := idx0 t
  unfold iblk0
  rw [View.read_apply]
  show (V c main_v0 : Vec F S16384x2048 .f32) _ = _
  congr 1
  funext a
  apply Fin.ext
  match a with
  | ⟨0, _⟩ => show win0_0.index t (0 : Fin 2) * 512 + 1 * r.val = 512 * t.val + r.val; rw [e0]; omega
  | ⟨1, _⟩ => show win0_0.index t (1 : Fin 2) * 2048 + 1 * j.val = j.val; rw [e1]; omega

/-- First grid, second input. -/
theorem tile0_y (c : Dev nD) (t : Fin cfg0.N) (r : Fin 512) (j : Fin 2048) (h : 512 * t.val + r.val < 16384) :
    (iblk0 V c 1 t : Vec F S512x2048 .f32) (ix2 r j) = (V c main_v1 : Vec F S16384x2048 .f32) (ix2 ⟨512 * t.val + r.val, h⟩ j) := by
  obtain ⟨-, -, e0, e1, -⟩ := idx0 t
  unfold iblk0
  rw [View.read_apply]
  show (V c main_v1 : Vec F S16384x2048 .f32) _ = _
  congr 1
  funext a
  apply Fin.ext
  match a with
  | ⟨0, _⟩ => show win0_1.index t (0 : Fin 2) * 512 + 1 * r.val = 512 * t.val + r.val; rw [e0]; omega
  | ⟨1, _⟩ => show win0_1.index t (1 : Fin 2) * 2048 + 1 * j.val = j.val; rw [e1]; omega

/-- Second grid, first input. -/
theorem tile1_x (c : Dev nD) (t : Fin cfg1.N) (r : Fin 512) (j : Fin 2048) (h : 512 * t.val + r.val < 16384) :
    (iblk1 V c 0 t : Vec F S512x2048 .f32) (ix2 r j) = (V c main_v0 : Vec F S16384x2048 .f32) (ix2 ⟨512 * t.val + r.val, h⟩ j) := by
  obtain ⟨e0, e1, -⟩ := idx1 t
  unfold iblk1
  rw [View.read_apply]
  show (V c main_v0 : Vec F S16384x2048 .f32) _ = _
  congr 1
  funext a
  apply Fin.ext
  match a with
  | ⟨0, _⟩ => show win1_0.index t (0 : Fin 2) * 512 + 1 * r.val = 512 * t.val + r.val; rw [e0]; omega
  | ⟨1, _⟩ => show win1_0.index t (1 : Fin 2) * 2048 + 1 * j.val = j.val; rw [e1]; omega

/-- Second grid, second input. -/
theorem tile1_y (c : Dev nD) (t : Fin cfg1.N) (r : Fin 512) (j : Fin 2048) (h : 512 * t.val + r.val < 16384) :
    (iblk1 V c 1 t : Vec F S512x2048 .f32) (ix2 r j) = (V c main_v1 : Vec F S16384x2048 .f32) (ix2 ⟨512 * t.val + r.val, h⟩ j) := by
  obtain ⟨-, -, e0, e1, -⟩ := idx1 t
  unfold iblk1
  rw [View.read_apply]
  show (V c main_v1 : Vec F S16384x2048 .f32) _ = _
  congr 1
  funext a
  apply Fin.ext
  match a with
  | ⟨0, _⟩ => show win1_1.index t (0 : Fin 2) * 512 + 1 * r.val = 512 * t.val + r.val; rw [e0]; omega
  | ⟨1, _⟩ => show win1_1.index t (1 : Fin 2) * 2048 + 1 * j.val = j.val; rw [e1]; omega

/-- Second grid, the first row of reciprocal scales: the window's block is the whole one-row array at every point. -/
theorem scale1_x (c : Dev nD) (t : Fin cfg1.N) (j : Fin 2048) :
    (iblk1 V c 2 t : Vec F S1x2048 .f32) (ix2 (0 : Fin 1) j) = (V c main_v13 : Vec F S1x2048 .f32) (ix2 (0 : Fin 1) j) := by
  obtain ⟨-, -, -, -, e0, e1, -⟩ := idx1 t
  unfold iblk1
  rw [View.read_apply]
  show (V c main_v13 : Vec F S1x2048 .f32) _ = _
  congr 1
  funext a
  apply Fin.ext
  match a with
  | ⟨0, _⟩ => show win1_2.index t (0 : Fin 2) * 1 + 1 * 0 = 0; rw [e0]
  | ⟨1, _⟩ => show win1_2.index t (1 : Fin 2) * 2048 + 1 * j.val = j.val; rw [e1]; omega

/-- Second grid, the second row of reciprocal scales. -/
theorem scale1_y (c : Dev nD) (t : Fin cfg1.N) (j : Fin 2048) :
    (iblk1 V c 3 t : Vec F S1x2048 .f32) (ix2 (0 : Fin 1) j) = (V c main_v18 : Vec F S1x2048 .f32) (ix2 (0 : Fin 1) j) := by
  obtain ⟨-, -, -, -, -, -, e0, e1, -⟩ := idx1 t
  unfold iblk1
  rw [View.read_apply]
  show (V c main_v18 : Vec F S1x2048 .f32) _ = _
  congr 1
  funext a
  apply Fin.ext
  match a with
  | ⟨0, _⟩ => show win1_3.index t (0 : Fin 2) * 1 + 1 * 0 = 0; rw [e0]
  | ⟨1, _⟩ => show win1_3.index t (1 : Fin 2) * 2048 + 1 * j.val = j.val; rw [e1]; omega

end Cert.KernelIdeal.Blocks

end
-- ==== Proof.ColSums.lean ====
/-
  The first grid of kernel calls: column sums of squares. One call sees a tile of 512 rows of each input and an
  8-row output block per input, of which only ROW 0 is ever read afterwards. At the first call of a run of sixteen
  the block is zeroed and then row 0 receives `0 + (the tile's column sums of squares)`; at every later call row 0
  receives `(row 0 as the call before left it) + (the tile's column sums of squares)`; rows 1 to 7 are written only
  by the zeroing. This module reads row 0 of what each kind of call leaves, from the list of stores that the
  symbolic run of the body found: the newest store is the one-row store, and an entry of row 0 lies under it.
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ColSums

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]

/-- The zero offsets, spelt as a constant function. -/
theorem hz : (![0, 0] : Fin 2 → Nat) = fun _ => 0 := funext fun a => by fin_cases a <;> rfl

/-- Row 0 of an 8-row block, as a one-row block. -/
abbrev topRow (xo : Vec F S8x2048 .f32) : Vec F S1x2048 .f32 :=
  View.ld xo (Rect.unit (s := S8x2048) ![0, 0] S1x2048.size inb_S8x2048_S1x2048_0_0)

/-- Row 0 read at column `j` is the block at `(0, j)`. -/
theorem topRow_apply (xo : Vec F S8x2048 .f32) (j : Fin 2048) :
    topRow xo (ix2 (0 : Fin 1) j) = xo (ix2 (0 : Fin 8) j) := by
  show xo _ = xo _
  congr 1
  funext a
  apply Fin.ext
  match a with
  | ⟨0, _⟩ => rfl
  | ⟨1, _⟩ => show 0 + 1 * j.val = j.val; omega

/-- Column `j` of row 0 lies at position `(0, j)` of the one-row store at offsets `(0, 0)`. -/
theorem row0_pos (j : Fin 2048) : ∀ a : Fin 2,
    (((ix2 (0 : Fin 8) j : S8x2048.Idx)) a).val = (![0, 0] : Fin 2 → Nat) a + (((ix2 (0 : Fin 1) j : S1x2048.Idx)) a).val := by
  intro a
  match a with
  | ⟨0, _⟩ => rfl
  | ⟨1, _⟩ => exact (Nat.zero_add _).symm

/-- A later call of a run, first input: row 0 of what it leaves is the accumulating store's payload, computed from the
    input tile and row 0 of what the call before left. -/
theorem later_row_x (c : Dev nD) (i : grid0.Coords) (a2 : Memref sig .tc .vmem S512x2048 .f32) (h2 : a2.IsWhole) (a3 : Memref sig .tc .vmem S512x2048 .f32) (h3 : a3.IsWhole)
    (a4 : Memref sig .tc .vmem S8x2048 .f32) (h4 : a4.IsWhole) (a5 : Memref sig .tc .vmem S8x2048 .f32) (h5 : a5.IsWhole) (hc : ¬cond0_0 i)
    (x0 x1 : Vec F S512x2048 .f32) (xo2 xo3 : Vec F S8x2048 .f32) (j : Fin 2048) :
    out0_B_2 c i a2 h2 a3 h3 a4 h4 a5 h5 hc x0 x1 xo2 xo3 (ix2 (0 : Fin 8) j) = k0_pay3 x0 (topRow xo2) (ix2 (0 : Fin 1) j) := by
  unfold out0_B_2 kernelRun0_B
  dsimp only
  refine (View.read_writes_cons_unit_of_mem a4.view (h4.unread xo2) inb_S8x2048_S1x2048_0_0 _ [] (ix2 (0 : Fin 8) j)
    (ix2 (0 : Fin 1) j) rfl (row0_pos j)).trans ?_
  simp only [View.readAt_eq_ld, h2.read_unread, h4.read_unread, View.ld_unit_zero (S := S512x2048) hz]

/-- A later call of a run, second input. -/
theorem later_row_y (c : Dev nD) (i : grid0.Coords) (a2 : Memref sig .tc .vmem S512x2048 .f32) (h2 : a2.IsWhole) (a3 : Memref sig .tc .vmem S512x2048 .f32) (h3 : a3.IsWhole)
    (a4 : Memref sig .tc .vmem S8x2048 .f32) (h4 : a4.IsWhole) (a5 : Memref sig .tc .vmem S8x2048 .f32) (h5 : a5.IsWhole) (hc : ¬cond0_0 i)
    (x0 x1 : Vec F S512x2048 .f32) (xo2 xo3 : Vec F S8x2048 .f32) (j : Fin 2048) :
    out0_B_3 c i a2 h2 a3 h3 a4 h4 a5 h5 hc x0 x1 xo2 xo3 (ix2 (0 : Fin 8) j) = k0_pay4 x1 (topRow xo3) (ix2 (0 : Fin 1) j) := by
  unfold out0_B_3 kernelRun0_B
  dsimp only
  refine (View.read_writes_cons_unit_of_mem a5.view (h5.unread xo3) inb_S8x2048_S1x2048_0_0 _ [] (ix2 (0 : Fin 8) j)
    (ix2 (0 : Fin 1) j) rfl (row0_pos j)).trans ?_
  simp only [View.readAt_eq_ld, h3.read_unread, h5.read_unread, View.ld_unit_zero (S := S512x2048) hz]

/-- The first call of a run, first input: row 0 of what it leaves is the accumulating store's payload over row 0 of
    the zero block just stored. -/
theorem first_row_x (c : Dev nD) (i : grid0.Coords) (a2 : Memref sig .tc .vmem S512x2048 .f32) (h2 : a2.IsWhole) (a3 : Memref sig .tc .vmem S512x2048 .f32) (h3 : a3.IsWhole)
    (a4 : Memref sig .tc .vmem S8x2048 .f32) (h4 : a4.IsWhole) (a5 : Memref sig .tc .vmem S8x2048 .f32) (h5 : a5.IsWhole) (hc : cond0_0 i)
    (x0 x1 : Vec F S512x2048 .f32) (j : Fin 2048) :
    out0_A_2 c i a2 h2 a3 h3 a4 h4 a5 h5 hc x0 x1 (ix2 (0 : Fin 8) j) = k0_pay3 x0 (topRow (k0_pay1 (F := F))) (ix2 (0 : Fin 1) j) := by
  unfold out0_A_2 kernelRun0_A
  dsimp only
  sl_unfold_words
  refine (View.read_writes_cons_unit_of_mem VO0_2 VO0_2.junk inb_S8x2048_S1x2048_0_0 _ _ (ix2 (0 : Fin 8) j)
    (ix2 (0 : Fin 1) j) rfl (row0_pos j)).trans ?_
  simp only [View.readAt_eq_ld, h2.read_unread, View.ld_unit_zero (S := S512x2048) hz, View.readCov_eq_canon',
    View.canon_unit_zero (S := S8x2048) hz]
  rfl

/-- The first call of a run, second input. -/
theorem first_row_y (c : Dev nD) (i : grid0.Coords) (a2 : Memref sig .tc .vmem S512x2048 .f32) (h2 : a2.IsWhole) (a3 : Memref sig .tc .vmem S512x2048 .f32) (h3 : a3.IsWhole)
    (a4 : Memref sig .tc .vmem S8x2048 .f32) (h4 : a4.IsWhole) (a5 : Memref sig .tc .vmem S8x2048 .f32) (h5 : a5.IsWhole) (hc : cond0_0 i)
    (x0 x1 : Vec F S512x2048 .f32) (j : Fin 2048) :
    out0_A_3 c i a2 h2 a3 h3 a4 h4 a5 h5 hc x0 x1 (ix2 (0 : Fin 8) j) = k0_pay4 x1 (topRow (k0_pay2 (F := F))) (ix2 (0 : Fin 1) j) := by
  unfold out0_A_3 kernelRun0_A
  dsimp only
  sl_unfold_words
  refine (View.read_writes_cons_unit_of_mem VO0_3 VO0_3.junk inb_S8x2048_S1x2048_0_0 _ _ (ix2 (0 : Fin 8) j)
    (ix2 (0 : Fin 1) j) rfl (row0_pos j)).trans ?_
  simp only [View.readAt_eq_ld, h3.read_unread, View.ld_unit_zero (S := S512x2048) hz, View.readCov_eq_canon',
    View.canon_unit_zero (S := S8x2048) hz]
  rfl

end Cert.KernelIdeal.ColSums

end
-- ==== Proof.Payloads.lean ====
/-
  The kernel bodies' arithmetic, read at an index.

  The first kernel keeps, per input, a row of 2048 running column sums of squares: a step over a block of 512 rows adds
  to the entry at column `j` the sum over the block's rows of the squared entries of column `j`. The second kernel
  keeps one running total: a step over a block of 512 rows multiplies every entry by its column's factor, sums each
  row, and adds to the total the sum over the rows of the product of the two row sums. Both start from blocks of
  zeros.

  Each statement below reads one such step at an index: a reshape between equal shapes is the identity, a reshape
  that adds a unit axis reads the operand at the same position, a row broadcast over many rows reads the row, a
  product or sum of arrays is entrywise, and a reduction over one axis is the sum over that axis's coordinates.
-/
import proofs.«122433_j8693013807330_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## The zero blocks -/

/-- The word `0x00000000` broadcast over a block is zero at every index. -/
theorem zero_block8 (i : S8x2048.Idx) : k0_pay1 (F := Ideal) i = (0 : EReal) :=
  (show k0_pay1 (F := Ideal) i = Ideal.ofBits .f32 0x00000000#32 from rfl).trans Ideal.ofBits_zero_f32

/-- The same for the second input's block. -/
theorem zero_block8' (i : S8x2048.Idx) : k0_pay2 (F := Ideal) i = (0 : EReal) :=
  (show k0_pay2 (F := Ideal) i = Ideal.ofBits .f32 0x00000000#32 from rfl).trans Ideal.ofBits_zero_f32

/-- The same for the second kernel's block. -/
theorem zero_block_d (i : S8x128.Idx) : k1_pay1 (F := Ideal) i = (0 : EReal) :=
  (show k1_pay1 (F := Ideal) i = Ideal.ofBits .f32 0x00000000#32 from rfl).trans Ideal.ofBits_zero_f32

/-! ## A step of the column sums of squares -/

/-- The reduction over the rows of the entrywise square, read at column `j`: the sum over the 512 rows of the squared
    entries of that column. -/
theorem col_sum_sq (v : Vec Ideal S512x2048 .f32) (j : Fin 2048) :
    multiReduction (F := Ideal) (φ := .f32) .add [0] S2048 (mulf v v) 0x00000000#32 reduces_S512x2048_S2048
        (.inl rfl) rfl (ix1 j)
      = ∑ r : Fin 512, v (ix2 r j) * v (ix2 r j) := by
  refine (Ideal.multiReduction_add_single (mulf v v) 0x00000000#32 reduces_S512x2048_S2048 (.inl rfl) rfl
    (ix1 j)).trans ?_
  refine Finset.sum_congr rfl fun (r : Fin 512) _ => ?_
  have e : reduces_S512x2048_S2048.lift (ix1 j) r = ix2 r j :=
    funext fun a => Fin.ext (by match a with | ⟨0, _⟩ => rfl | ⟨1, _⟩ => rfl)
  rw [e, mulf_apply]

/-- A step of the first input's running column sums: the entry at column `j` grows by the block's sum of squares of
    column `j`. -/
theorem colsq_step (v3 : Vec Ideal S512x2048 .f32) (v7 : Vec Ideal S1x2048 .f32) (j : Fin 2048) :
    k0_pay3 (F := Ideal) v3 v7 (ix2 (0 : Fin 1) j)
      = v7 (ix2 (0 : Fin 1) j) + ∑ r : Fin 512, v3 (ix2 r j) * v3 (ix2 r j) := by
  have e : k0_pay3 (F := Ideal) v3 v7
      = addf v7 (shapeCast S1x2048
          (multiReduction .add [0] S2048 (mulf v3 v3) 0x00000000#32 reduces_S512x2048_S2048 (.inl rfl) rfl)
          shapeCasts_S2048_S1x2048) := by
    unfold k0_pay3
    simp only [shapeCast_self]
  rw [e, addf_apply, shapeCast_a_1a_apply, col_sum_sq]

/-- The same step for the second input. -/
theorem colsq_step' (v5 : Vec Ideal S512x2048 .f32) (v14 : Vec Ideal S1x2048 .f32) (j : Fin 2048) :
    k0_pay4 (F := Ideal) v5 v14 (ix2 (0 : Fin 1) j)
      = v14 (ix2 (0 : Fin 1) j) + ∑ r : Fin 512, v5 (ix2 r j) * v5 (ix2 r j) := by
  have e : k0_pay4 (F := Ideal) v5 v14
      = addf v14 (shapeCast S1x2048
          (multiReduction .add [0] S2048 (mulf v5 v5) 0x00000000#32 reduces_S512x2048_S2048 (.inl rfl) rfl)
          shapeCasts_S2048_S1x2048) := by
    unfold k0_pay4
    simp only [shapeCast_self]
  rw [e, addf_apply, shapeCast_a_1a_apply, col_sum_sq]

/-! ## A step of the running total of row-sum products -/

/-- An array of 512 entries reshaped to 512 rows of one entry reads, at row `r`, the entry `r`: the two indices have
    the same position. -/
theorem shapeCast_a_a1_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    omega)

/-- The reduction over the columns of the entries times their column's factor, read at row `r`: the row's sum of
    the products. -/
theorem row_sum (v : Vec Ideal S512x2048 .f32) (w : Vec Ideal S1x2048 .f32) (r : Fin 512) :
    multiReduction (F := Ideal) (φ := .f32) .add [1] S512
        (mulf v (broadcastTo S512x2048 w broadcasts_S1x2048_S512x2048)) 0x00000000#32 reduces_S512x2048_S512
        (.inl rfl) rfl (ix1 r)
      = ∑ c : Fin 2048, v (ix2 r c) * w (ix2 (0 : Fin 1) c) := by
  refine (Ideal.multiReduction_add_single (mulf v (broadcastTo S512x2048 w broadcasts_S1x2048_S512x2048))
    0x00000000#32 reduces_S512x2048_S512 (.inl rfl) rfl (ix1 r)).trans ?_
  refine Finset.sum_congr rfl fun (c : Fin 2048) _ => ?_
  have e : reduces_S512x2048_S512.lift (ix1 r) c = ix2 r c :=
    funext fun a => Fin.ext (by match a with | ⟨0, _⟩ => rfl | ⟨1, _⟩ => rfl)
  rw [e, mulf_apply, broadcastTo_1b_ab_apply]

/-- The reduction over the rows of a one-column array, read at its one index: the sum over the 512 rows. -/
theorem col_total (y : Vec Ideal S512x1 .f32) :
    multiReduction (F := Ideal) (φ := .f32) .add [0] S1 y 0x00000000#32 reduces_S512x1_S1 (.inl rfl) rfl
        (ix1 (0 : Fin 1))
      = ∑ r : Fin 512, y (ix2 r (0 : Fin 1)) := by
  refine (Ideal.multiReduction_add_single y 0x00000000#32 reduces_S512x1_S1 (.inl rfl) rfl
    (ix1 (0 : Fin 1))).trans ?_
  refine Finset.sum_congr rfl fun (r : Fin 512) _ => ?_
  have e : reduces_S512x1_S1.lift (ix1 (0 : Fin 1)) r = ix2 r (0 : Fin 1) :=
    funext fun a => Fin.ext (by match a with | ⟨0, _⟩ => rfl | ⟨1, _⟩ => rfl)
  rw [e]

/-- A step of the running total: it grows by the sum over the block's rows of the product of the two row sums, each
    row sum being the sum over the columns of the entry times its column's factor. -/
theorem dot_step (v3 v5 : Vec Ideal S512x2048 .f32) (v7 v9 : Vec Ideal S1x2048 .f32) (v22 : Vec Ideal S1x1 .f32) :
    k1_pay2 (F := Ideal) v3 v5 v7 v9 v22 (ix2 (0 : Fin 1) (0 : Fin 1))
      = v22 (ix2 (0 : Fin 1) (0 : Fin 1))
        + ∑ r : Fin 512, (∑ c : Fin 2048, v3 (ix2 r c) * v7 (ix2 (0 : Fin 1) c))
            * (∑ c : Fin 2048, v5 (ix2 r c) * v9 (ix2 (0 : Fin 1) c)) := by
  have e : k1_pay2 (F := Ideal) v3 v5 v7 v9 v22
      = addf v22 (shapeCast S1x1
          (multiReduction .add [0] S1
            (mulf
              (shapeCast S512x1
                (multiReduction .add [1] S512 (mulf v3 (broadcastTo S512x2048 v7 broadcasts_S1x2048_S512x2048))
                  0x00000000#32 reduces_S512x2048_S512 (.inl rfl) rfl) shapeCasts_S512_S512x1)
              (shapeCast S512x1
                (multiReduction .add [1] S512 (mulf v5 (broadcastTo S512x2048 v9 broadcasts_S1x2048_S512x2048))
                  0x00000000#32 reduces_S512x2048_S512 (.inl rfl) rfl) shapeCasts_S512_S512x1))
            0x00000000#32 reduces_S512x1_S1 (.inl rfl) rfl)
          shapeCasts_S1_S1x1) := by
    unfold k1_pay2
    simp only [shapeCast_self]
  rw [e, addf_apply, shapeCast_a_1a_apply, col_total]
  refine congrArg (v22 (ix2 (0 : Fin 1) (0 : Fin 1)) + ·) (Finset.sum_congr rfl fun (r : Fin 512) _ => ?_)
  rw [mulf_apply, shapeCast_a_a1_apply, shapeCast_a_a1_apply, row_sum, row_sum]

end Cert.KernelIdeal.Payloads

end
-- ==== Proof.Spec.lean ====
/-
  The mathematics both programs compute, stated once on the flattened inputs: `X` and `Y` are the two inputs read as
  matrices of 16384 pixel rows by 2048 channel columns, entries extended reals.

  A column's squared norm is the sum of its squared entries (`colSq`); its scale is the square root of that plus a small
  constant (`den`). The reference divides every entry by its column's scale, forms the Gram matrix of the two scaled
  matrices, and totals it (`gramTotal`): the sum over column pairs `(c, d)` of the sum over rows `p` of
  `(X p c / den X c) · (Y p d / den Y d)`. The kernel never forms the Gram matrix: it multiplies every entry by the
  reciprocal of its column's scale, sums each row (`rowSum`), and totals the products of the two row sums (`rowDot`).
  Both then divide the total by the number of Gram entries and square (`meanSq`).

  On finite entries the two totals agree — the sum over pairs of a product of a `c`-term and a `d`-term is the product
  of the two sums, row by row — which is proved in the algebra module; here are only the definitions.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The flattened input's shape: 16384 pixel rows, 2048 channel columns. -/
abbrev SX : Shape := ⟨2, ![16384, 2048]⟩

/-- A flattened input at the ideal instance. -/
abbrev Mat : Type := SX.Idx → EReal

/-- The small constant added to a column's norm (the same float word in both programs). -/
def eps : EReal := Ideal.ofBits .f32 0x358637BD#32

/-- The number of entries of the Gram matrix, 2048 · 2048, as both programs write it. -/
def count : EReal := Ideal.ofBits .f32 0x4A800000#32

/-- The numerator of the kernel's reciprocal scale. -/
def one : EReal := Ideal.ofBits .f32 0x3F800000#32

/-- Every entry is a real number. -/
def Finite (X : Mat) : Prop := ∀ i, ∃ r : ℝ, X i = (r : EReal)

/-- A column's squared norm: the sum over the rows of the squared entries. -/
def colSq (X : Mat) (c : Fin 2048) : EReal := ∑ p : Fin 16384, X (ix2 p c) * X (ix2 p c)

/-- A column's scale: its norm plus the small constant. -/
def den (X : Mat) (c : Fin 2048) : EReal := Ideal.sqrt (colSq X c) + eps

/-- The total of the Gram matrix of the two column-scaled matrices. -/
def gramTotal (X Y : Mat) : EReal :=
  ∑ c : Fin 2048, ∑ d : Fin 2048, ∑ p : Fin 16384,
    Ideal.div (X (ix2 p c)) (den X c) * Ideal.div (Y (ix2 p d)) (den Y d)

/-- A row's sum of entries, each multiplied by the reciprocal of its column's scale. -/
def rowSum (X : Mat) (p : Fin 16384) : EReal := ∑ c : Fin 2048, X (ix2 p c) * Ideal.div one (den X c)

/-- The total over the rows of the product of the two row sums. -/
def rowDot (X Y : Mat) : EReal := ∑ p : Fin 16384, rowSum X p * rowSum Y p

/-- The mean over the Gram entries, squared. -/
def meanSq (t : EReal) : EReal := Ideal.div t count * Ideal.div t count

end Cert.Spec

end
-- ==== Proof.LibSums.lean ====
/-
  General facts about sums over the index sets of literal shapes, on any additive commutative monoid, and
  about the total of a vector's entries under the layout and reduction operations at the ideal instance:
  a sum over a rank-3 or rank-4 index set is the iterated sum over its coordinates; a sum over
  `Fin (m * n)` splits into `m` consecutive stretches of length `n`; a reshape keeps the total of the entries;
  a float add-reduction over any axes keeps the total (each entry lands in exactly one reduced cell); a vector
  with exactly one entry has that entry as its total.
-/
import Idealize.ShloMosaic.PureOps.Ideal.Laws
import Idealize.ShloMosaic.Lib.ValueIdx

noncomputable section

open scoped BigOperators

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the `m` stretches of the sums over each stretch's `n` places:
    place `r` of stretch `q` is `r + n * q`. -/
theorem sum_fin_stretches {M : Type*} [AddCommMonoid M] (m n : Nat) (g : Fin (m * n) → M) :
    ∑ k, g k = ∑ q : Fin m, ∑ r : Fin n, g (finProdFinEquiv (q, r)) := by
  rw [← Equiv.sum_comp finProdFinEquiv g, Fintype.sum_prod_type]

/-- A reshape keeps the total of the entries: it only re-indexes them. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- A float add-reduction at the ideal instance keeps the total of the entries: every source entry is added into
    exactly one cell of the result. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j, multiReduction .add axes t src acc h hφ hacc j = ∑ i, src i := by
  show ∑ j, Ideal.reduceAdd h src j = ∑ i, src i
  unfold Ideal.reduceAdd
  exact Finset.sum_fiberwise Finset.univ (fun i => h.drop i) src

/-- A vector over an index set with exactly one element has that element's entry as its total. -/
theorem eq_sum_of_unique {M : Type*} [AddCommMonoid M] {ι : Type*} [Fintype ι] [Subsingleton ι] (x : ι → M) (i : ι) :
    x i = ∑ k, x k := by
  haveI : Unique ι := uniqueOfSubsingleton i
  rw [Fintype.sum_unique]
  exact congrArg x (Subsingleton.elim _ _)

/-- The index set of a shape whose every axis has extent one has at most one element. -/
theorem subsingleton_idx_of_unit {s : Shape} (hs : ∀ a, s.size a = 1) : Subsingleton s.Idx :=
  ⟨fun i j => funext fun a => Fin.ext (by have := (i a).isLt; have := (j a).isLt; have := hs a; omega)⟩

end Cert.Sums

end
-- ==== Proof.Algebra.lean ====
/-
  Algebra used by the certificate, independent of the programs' structure.

  * The rows 0 … 16383 split into 32 consecutive tiles of 512 rows; summing the tile sums — the first sixteen tiles
    and then the last sixteen — gives the sum over all rows.
  * On matrices with real entries, the total of the products of the two scaled row sums equals the total of the Gram
    matrix of the two column-scaled matrices.
-/
import proofs.«122433_j8693013807330_2_alg».proof.Proof.Spec
import proofs.«122433_j8693013807330_2_alg».proof.Proof.LibSums
import Mathlib.Algebra.BigOperators.Fin
import Mathlib.Algebra.BigOperators.Intervals

noncomputable section

open scoped BigOperators

namespace Cert.Algebra

/-- The sum of `g` over the 512 rows of tile `t` (rows past the end count as zero). -/
def tileSum {M : Type*} [AddCommMonoid M] (g : Fin 16384 → M) (t : ℕ) : M :=
  ∑ r : Fin 512, if h : 512 * t + r.val < 16384 then g ⟨512 * t + r.val, h⟩ else 0

/-- For each of the 32 tiles every row is in range, so the tile sum is the plain sum over the tile's rows. -/
theorem tileSum_eq {M : Type*} [AddCommMonoid M] (g : Fin 16384 → M) (t : ℕ) (ht : t < 32) :
    tileSum g t = ∑ r : Fin 512, g ⟨512 * t + r.val, by have := r.isLt; omega⟩ := by
  unfold tileSum
  refine Finset.sum_congr rfl fun r _ => ?_
  have := r.isLt
  rw [dif_pos (by omega)]

/-- The sum of all 32 tile sums is the sum over all rows: row `512 t + r` is place `r` of stretch `t`. -/
theorem sum_all_tiles {M : Type*} [AddCommMonoid M] (g : Fin 16384 → M) :
    ∑ t : Fin 32, tileSum g t.val = ∑ p : Fin 16384, g p := by
  have h := Cert.Sums.sum_fin_stretches 32 512 (g : Fin (32 * 512) → M)
  refine Eq.trans ?_ h.symm
  refine Finset.sum_congr rfl fun q _ => ?_
  rw [tileSum_eq g q.val q.isLt]
  refine Finset.sum_congr rfl fun r _ => ?_
  refine congrArg g (Fin.ext ?_)
  simp only [finProdFinEquiv_apply_val]
  omega

/-- The first sixteen tile sums plus the last sixteen tile sums give the sum over all rows. -/
theorem sum_two_runs_tiles {M : Type*} [AddCommMonoid M] (g : Fin 16384 → M) :
    (∑ s ∈ Finset.range 16, tileSum g (0 + s)) + (∑ s ∈ Finset.range 16, tileSum g (16 + s))
      = ∑ p : Fin 16384, g p := by
  have e : (∑ s ∈ Finset.range 16, tileSum g (0 + s)) + (∑ s ∈ Finset.range 16, tileSum g (16 + s))
      = ∑ t ∈ Finset.range (16 + 16), tileSum g t := by
    rw [Finset.sum_range_add]
    simp only [Nat.zero_add]
  rw [e, show (16 + 16 : ℕ) = 32 from rfl, Finset.sum_range]
  exact sum_all_tiles g

/-! ### The two totals agree on real entries -/

open Idealize.ShloMosaic Idealize.ShloMosaic.ValueIdx Cert.Spec

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- Row by row, the product of two sums is the sum over pairs of the products; then the order of summation is
    exchanged so that the rows are summed innermost. -/
theorem sum_mul_sum_comm {P C : Type*} [Fintype P] [Fintype C] (A B : P → C → ℝ) :
    ∑ p, (∑ c, A p c) * (∑ d, B p d) = ∑ c, ∑ d, ∑ p, A p c * B p d := by
  calc ∑ p, (∑ c, A p c) * (∑ d, B p d) = ∑ p, ∑ c, ∑ d, A p c * B p d := by
        refine Finset.sum_congr rfl fun p _ => ?_
        rw [Finset.sum_mul_sum]
    _ = ∑ c, ∑ p, ∑ d, A p c * B p d := Finset.sum_comm
    _ = ∑ c, ∑ d, ∑ p, A p c * B p d := by
        refine Finset.sum_congr rfl fun c _ => ?_
        exact Finset.sum_comm

/-- The numerator of the reciprocal scale is the real number one. -/
theorem one_eq : Cert.Spec.one = ((1 : ℝ) : EReal) := by
  have h : ((8388608 : ℝ) : EReal) * (((2 ^ 23)⁻¹ : ℝ) : EReal) = ((1 : ℝ) : EReal) := by
    rw [← EReal.coe_mul]
    exact congrArg Real.toEReal (by norm_num)
  simpa [Cert.Spec.one, Ideal.ofBits, Ideal.ieee] using h

/-- The small constant is a positive real number (its value is never needed). -/
theorem eps_real : ∃ e : ℝ, 0 < e ∧ Cert.Spec.eps = (e : EReal) :=
  ⟨8796093 * (2 ^ 43)⁻¹, by positivity, by simp [Cert.Spec.eps, Ideal.ofBits, Ideal.ieee]⟩

/-- On real entries a column's scale is a positive real: the square root of a sum of squares, plus the constant. -/
theorem den_real (X : Mat) (a : SX.Idx → ℝ) (ha : ∀ i, X i = (a i : EReal)) (c : Fin 2048) :
    ∃ d : ℝ, 0 < d ∧ den X c = (d : EReal) := by
  obtain ⟨e, he, hee⟩ := eps_real
  have hsq : colSq X c = ((∑ p : Fin 16384, a (ix2 p c) * a (ix2 p c) : ℝ) : EReal) := by
    unfold colSq
    rw [coe_sum]
    refine Finset.sum_congr rfl fun p _ => ?_
    rw [ha, EReal.coe_mul]
  have hnn : 0 ≤ ∑ p : Fin 16384, a (ix2 p c) * a (ix2 p c) :=
    Finset.sum_nonneg fun p _ => mul_self_nonneg _
  refine ⟨Real.sqrt (∑ p : Fin 16384, a (ix2 p c) * a (ix2 p c)) + e, ?_, ?_⟩
  · have := Real.sqrt_nonneg (∑ p : Fin 16384, a (ix2 p c) * a (ix2 p c))
    linarith
  · unfold den
    rw [hsq, Ideal.sqrt_coe, if_neg (not_lt.mpr hnn), hee, EReal.coe_add]

/-- On real entries the total of the products of the two scaled row sums is the total of the Gram matrix of the two
    column-scaled matrices: every quantity is the coercion of a real one, and over the reals the identity is
    `sum_mul_sum_comm`. -/
theorem rowDot_eq_gramTotal (X Y : Cert.Spec.Mat) (hX : Cert.Spec.Finite X) (hY : Cert.Spec.Finite Y) :
    Cert.Spec.rowDot X Y = Cert.Spec.gramTotal X Y := by
  choose a ha using hX
  choose b hb using hY
  choose d1 hd1 hden1 using den_real X a ha
  choose d2 hd2 hden2 using den_real Y b hb
  -- dividing an entry by its column's scale, and the reciprocal of the scale, as reals
  have hdivX : ∀ p c, Ideal.div (X (ix2 p c)) (den X c) = ((a (ix2 p c) * (1 / d1 c) : ℝ) : EReal) := by
    intro p c
    rw [hden1, Ideal.div_coe (hd1 c).ne', ha, EReal.coe_mul]
  have hdivY : ∀ p d, Ideal.div (Y (ix2 p d)) (den Y d) = ((b (ix2 p d) * (1 / d2 d) : ℝ) : EReal) := by
    intro p d
    rw [hden2, Ideal.div_coe (hd2 d).ne', hb, EReal.coe_mul]
  have hrecX : ∀ c, Ideal.div one (den X c) = ((1 / d1 c : ℝ) : EReal) := by
    intro c
    rw [hden1, Ideal.div_coe (hd1 c).ne', one_eq, ← EReal.coe_mul, one_mul]
  have hrecY : ∀ d, Ideal.div one (den Y d) = ((1 / d2 d : ℝ) : EReal) := by
    intro d
    rw [hden2, Ideal.div_coe (hd2 d).ne', one_eq, ← EReal.coe_mul, one_mul]
  -- the row sums as reals
  have hrowX : ∀ p, rowSum X p = ((∑ c : Fin 2048, a (ix2 p c) * (1 / d1 c) : ℝ) : EReal) := by
    intro p
    unfold rowSum
    rw [coe_sum]
    refine Finset.sum_congr rfl fun c _ => ?_
    rw [hrecX, ha, EReal.coe_mul]
  have hrowY : ∀ p, rowSum Y p = ((∑ d : Fin 2048, b (ix2 p d) * (1 / d2 d) : ℝ) : EReal) := by
    intro p
    unfold rowSum
    rw [coe_sum]
    refine Finset.sum_congr rfl fun d _ => ?_
    rw [hrecY, hb, EReal.coe_mul]
  -- both totals as reals
  have hL : rowDot X Y = ((∑ p : Fin 16384, (∑ c : Fin 2048, a (ix2 p c) * (1 / d1 c))
      * (∑ d : Fin 2048, b (ix2 p d) * (1 / d2 d)) : ℝ) : EReal) := by
    unfold rowDot
    rw [coe_sum]
    refine Finset.sum_congr rfl fun p _ => ?_
    rw [hrowX, hrowY, ← EReal.coe_mul]
  have hR : gramTotal X Y = ((∑ c : Fin 2048, ∑ d : Fin 2048, ∑ p : Fin 16384,
      (a (ix2 p c) * (1 / d1 c)) * (b (ix2 p d) * (1 / d2 d)) : ℝ) : EReal) := by
    unfold gramTotal
    rw [coe_sum]
    refine Finset.sum_congr rfl fun c _ => ?_
    rw [coe_sum]
    refine Finset.sum_congr rfl fun d _ => ?_
    rw [coe_sum]
    refine Finset.sum_congr rfl fun p _ => ?_
    rw [hdivX, hdivY, ← EReal.coe_mul]
  rw [hL, hR]
  exact congrArg Real.toEReal
    (sum_mul_sum_comm (fun p c => a (ix2 p c) * (1 / d1 c)) (fun p d => b (ix2 p d) * (1 / d2 d)))

end Cert.Algebra

end
-- ==== Proof.ColAcc.lean ====
/-
  The first grid's accumulation, at the ideal instance. Fix a column `j`. Row 0, column `j` of the first output's
  staging buffer after point `n` is a running total: at the first point of a run of sixteen it is
  `0 + (sum over the point's 512 rows r of x(512·n + r, j)²)`, and at every later point it is the value after the point
  before plus that point's tile sum. Hence after the last point of run `q` (point `16·q + 15`) it is `0 +` the sum of
  the sixteen tile sums of the run — by the general fold over a run of consecutive points, never by enumerating the
  32 points. The same holds for the second input and the second output. The tile sums are written with the total
  function `tileSum` of the algebra module, so that the two runs add up to the sum over all 16384 rows there.
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws
import proofs.«122433_j8693013807330_2_alg».proof.Proof.Blocks
import proofs.«122433_j8693013807330_2_alg».proof.Proof.ColSums
import proofs.«122433_j8693013807330_2_alg».proof.Proof.Payloads
import proofs.«122433_j8693013807330_2_alg».proof.Proof.Algebra
set_option maxRecDepth 16384

noncomputable section

open scoped BigOperators

namespace Cert.KernelIdeal.ColAcc

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

open Cert.Algebra (tileSum tileSum_eq)

variable (V : (c : Dev nD) → (b : Ref sig .tc) → Buf (Elt Ideal) ((c : Thread nD τ).loc b))

/-- The two flattened inputs as the grid finds them, and the two input tiles at a point, typed as matrices. -/
abbrev inX (c : Dev nD) : Vec Ideal S16384x2048 .f32 := V c main_v0
abbrev inY (c : Dev nD) : Vec Ideal S16384x2048 .f32 := V c main_v1
abbrev tileX (c : Dev nD) (n : ℕ) (h : n < cfg0.N) : Vec Ideal S512x2048 .f32 := iblk0 V c 0 ⟨n, h⟩
abbrev tileY (c : Dev nD) (n : ℕ) (h : n < cfg0.N) : Vec Ideal S512x2048 .f32 := iblk0 V c 1 ⟨n, h⟩

/-- The squared entries of column `j` of the first flattened input, row by row. -/
def sqX (c : Dev nD) (j : Fin 2048) : Fin 16384 → EReal := fun p => inX V c (ix2 p j) * inX V c (ix2 p j)

/-- The squared entries of column `j` of the second flattened input. -/
def sqY (c : Dev nD) (j : Fin 2048) : Fin 16384 → EReal := fun p => inY V c (ix2 p j) * inY V c (ix2 p j)

/-- Row 0 of the first output's staging buffer after point `n`, as a function of the column. -/
def rowX (c : Dev nD) (n : ℕ) (h : n < cfg0.N) : Fin 2048 → EReal := fun j => (outsAt0 V c n h).1 (ix2 (0 : Fin 8) j)

/-- Row 0 of the second output's staging buffer after point `n`. -/
def rowY (c : Dev nD) (n : ℕ) (h : n < cfg0.N) : Fin 2048 → EReal := fun j => (outsAt0 V c n h).2 (ix2 (0 : Fin 8) j)

/-- The sum over a point's tile of the squared entries of column `j` is that point's tile sum. -/
theorem tile_sq_x (c : Dev nD) (n : ℕ) (h : n < cfg0.N) (j : Fin 2048) :
    (∑ r : Fin 512, tileX V c n h (ix2 r j) * tileX V c n h (ix2 r j))
      = tileSum (sqX V c j) n := by
  have hn : n < 32 := lt_of_lt_of_eq h (show cfg0.N = 32 from N_0)
  rw [tileSum_eq _ n hn]
  refine Finset.sum_congr rfl fun (r : Fin 512) _ => ?_
  have hr : r.val < 512 := r.isLt
  unfold tileX
  rw [Blocks.tile0_x V c ⟨n, h⟩ r j (by show 512 * n + r.val < 16384; omega)]
  rfl

theorem tile_sq_y (c : Dev nD) (n : ℕ) (h : n < cfg0.N) (j : Fin 2048) :
    (∑ r : Fin 512, tileY V c n h (ix2 r j) * tileY V c n h (ix2 r j))
      = tileSum (sqY V c j) n := by
  have hn : n < 32 := lt_of_lt_of_eq h (show cfg0.N = 32 from N_0)
  rw [tileSum_eq _ n hn]
  refine Finset.sum_congr rfl fun (r : Fin 512) _ => ?_
  have hr : r.val < 512 := r.isLt
  unfold tileY
  rw [Blocks.tile0_y V c ⟨n, h⟩ r j (by show 512 * n + r.val < 16384; omega)]
  rfl

/-- At the first point of a run, row 0 restarts at zero plus the point's tile sums. -/
theorem rowX_first (c : Dev nD) (n : ℕ) (h : n < cfg0.N) (h0 : n % 16 = 0) :
    rowX V c n h = fun j => (fun _ => (0 : EReal)) j + tileSum (sqX V c j) n := by
  funext j
  unfold rowX
  rw [outsAt0_A V c ⟨n, h⟩ h0]
  dsimp only
  rw [ColSums.first_row_x, Payloads.colsq_step, tile_sq_x V c n h j, ColSums.topRow_apply, Payloads.zero_block8]

theorem rowY_first (c : Dev nD) (n : ℕ) (h : n < cfg0.N) (h0 : n % 16 = 0) :
    rowY V c n h = fun j => (fun _ => (0 : EReal)) j + tileSum (sqY V c j) n := by
  funext j
  unfold rowY
  rw [outsAt0_A V c ⟨n, h⟩ h0]
  dsimp only
  rw [ColSums.first_row_y, Payloads.colsq_step', tile_sq_y V c n h j, ColSums.topRow_apply, Payloads.zero_block8']

/-- At a later point of a run, row 0 is what the point before left plus the point's tile sums. -/
theorem rowX_later (c : Dev nD) (n : ℕ) (h : n + 1 < cfg0.N) (h0 : ¬(n + 1) % 16 = 0) :
    rowX V c (n + 1) h = fun j => rowX V c n (Nat.lt_of_succ_lt h) j + tileSum (sqX V c j) (n + 1) := by
  funext j
  unfold rowX
  rw [outsAt0_B V c ⟨n + 1, h⟩ h0]
  dsimp only
  rw [ColSums.later_row_x, Payloads.colsq_step, tile_sq_x V c (n + 1) h j, ColSums.topRow_apply]
  rfl

theorem rowY_later (c : Dev nD) (n : ℕ) (h : n + 1 < cfg0.N) (h0 : ¬(n + 1) % 16 = 0) :
    rowY V c (n + 1) h = fun j => rowY V c n (Nat.lt_of_succ_lt h) j + tileSum (sqY V c j) (n + 1) := by
  funext j
  unfold rowY
  rw [outsAt0_B V c ⟨n + 1, h⟩ h0]
  dsimp only
  rw [ColSums.later_row_y, Payloads.colsq_step', tile_sq_y V c (n + 1) h j, ColSums.topRow_apply]
  rfl

/-- After the last point of run `q`, row 0 of the first output is zero plus the run's sixteen tile sums. -/
theorem rowX_run (c : Dev nD) (q : ℕ) (h : 16 * q + 15 < cfg0.N) (j : Fin 2048) :
    rowX V c (16 * q + 15) h j = 0 + ∑ s ∈ Finset.range 16, tileSum (sqX V c j) (16 * q + s) := by
  rw [Pipeline.eq_accAt (rowX V c) 16 (fun n _ j => (fun _ => (0 : EReal)) j + tileSum (sqX V c j) n)
    (fun n _ acc j => acc j + tileSum (sqX V c j) n) (fun n h h0 => rowX_first V c n h h0) (fun n h h0 => rowX_later V c n h h0) q 15 (by decide) h]
  exact Pipeline.accAt_add_apply _ _ (fun _ => (0 : EReal)) (fun n j => tileSum (sqX V c j) n) (16 * q) 15 (fun _ _ => rfl)
    (fun _ _ _ _ _ _ => rfl) 15 le_rfl h j

theorem rowY_run (c : Dev nD) (q : ℕ) (h : 16 * q + 15 < cfg0.N) (j : Fin 2048) :
    rowY V c (16 * q + 15) h j = 0 + ∑ s ∈ Finset.range 16, tileSum (sqY V c j) (16 * q + s) := by
  rw [Pipeline.eq_accAt (rowY V c) 16 (fun n _ j => (fun _ => (0 : EReal)) j + tileSum (sqY V c j) n)
    (fun n _ acc j => acc j + tileSum (sqY V c j) n) (fun n h h0 => rowY_first V c n h h0) (fun n h h0 => rowY_later V c n h h0) q 15 (by decide) h]
  exact Pipeline.accAt_add_apply _ _ (fun _ => (0 : EReal)) (fun n j => tileSum (sqY V c j) n) (16 * q) 15 (fun _ _ => rfl)
    (fun _ _ _ _ _ _ => rfl) 15 le_rfl h j

end Cert.KernelIdeal.ColAcc

end
-- ==== Proof.ColFinal.lean ====
/-
  What the first grid leaves in its two output arrays. Each output array has 16 rows: block 0 (rows 0–7) belongs to the
  first run of sixteen points and is written back once, after point 15; block 1 (rows 8–15) belongs to the second run
  and is written back after point 31. So after the grid the array's rows 0–7 hold what the call at point 15 left in its
  staging buffer, and rows 8–15 what the call at point 31 left. Only rows 0 and 8 are read afterwards; this module
  states them: row 0 of the array is row 0 of the buffer after point 15, row 8 is row 0 of the buffer after point 31.
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws
import proofs.«122433_j8693013807330_2_alg».proof.Proof.Blocks
set_option maxRecDepth 16384

noncomputable section

open scoped BigOperators

namespace Cert.KernelIdeal.ColFinal

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem lt15 : 15 < cfg0.N := by rw [show cfg0.N = 32 from N_0]; decide
theorem lt31 : 31 < cfg0.N := by rw [show cfg0.N = 32 from N_0]; decide

/-- The first output array after the grid: the buffer after point 15 on rows 0–7, the buffer after point 31 on rows 8–15. -/
def finalX (c : Dev nD) : Vec F S16x2048 .f32 := fun i =>
  if (i 0).val < 8 then (outsAt0 V c 15 lt15).1 (ix2 ⟨(i 0).val % 8, Nat.mod_lt _ (by decide)⟩ ⟨(i 1).val, idx2_lt1 i⟩)
  else (outsAt0 V c 31 lt31).1 (ix2 ⟨(i 0).val % 8, Nat.mod_lt _ (by decide)⟩ ⟨(i 1).val, idx2_lt1 i⟩)

/-- The second output array after the grid, likewise. -/
def finalY (c : Dev nD) : Vec F S16x2048 .f32 := fun i =>
  if (i 0).val < 8 then (outsAt0 V c 15 lt15).2 (ix2 ⟨(i 0).val % 8, Nat.mod_lt _ (by decide)⟩ ⟨(i 1).val, idx2_lt1 i⟩)
  else (outsAt0 V c 31 lt31).2 (ix2 ⟨(i 0).val % 8, Nat.mod_lt _ (by decide)⟩ ⟨(i 1).val, idx2_lt1 i⟩)

/-- A point that writes the first output back writes its block of `finalX`. -/
theorem flushed_x (c : Dev nD) (t : Fin cfg0.N) (hf : (cfg0.win 2).flush t = true) :
    (dat0 V c).flushed 2 t = ((cfg0.win 2).blk t).view.read (Elt F) (finalX V c) := by
  have hN : t.val < 32 := lt_of_lt_of_eq t.isLt (show cfg0.N = 32 from N_0)
  have h15 : t.val % 16 = 15 := (flush0_2 t).mp hf
  obtain ⟨-, -, -, -, e0, e1, -⟩ := Blocks.idx0 t
  show (cfg0.win 2).cut (grid0.coords t) ((dat0 V c).after 2 t) = _
  rw [after0_2]
  funext y
  show (outsAt0 V c t.val t.isLt).1 y = finalX V c (((cfg0.win 2).blk t).view.emb y)
  have hy0 : ((((cfg0.win 2).blk t).view.emb y) 0).val = win0_2.index t (0 : Fin 2) * 8 + 1 * (y 0).val := rfl
  have hy1 : ((((cfg0.win 2).blk t).view.emb y) 1).val = win0_2.index t (1 : Fin 2) * 2048 + 1 * (y 1).val := rfl
  have y0 : (y 0).val < 8 := (y 0).isLt
  have y1 : (y 1).val < 2048 := (y 1).isLt
  have hidx : (ix2 (⟨((((cfg0.win 2).blk t).view.emb y) 0).val % 8, Nat.mod_lt _ (by decide)⟩ : Fin 8)
      (⟨((((cfg0.win 2).blk t).view.emb y) 1).val, idx2_lt1 _⟩ : Fin 2048) : S8x2048.Idx) = y := by
    funext a
    apply Fin.ext
    match a with
    | ⟨0, _⟩ => show ((((cfg0.win 2).blk t).view.emb y) 0).val % 8 = (y 0).val; rw [hy0]; omega
    | ⟨1, _⟩ => show ((((cfg0.win 2).blk t).view.emb y) 1).val = (y 1).val; rw [hy1, e1]; omega
  unfold finalX
  rcases (by omega : t.val = 15 ∨ t.val = 31) with ht | ht
  · obtain rfl : t = ⟨15, lt15⟩ := Fin.ext ht
    rw [if_pos (by rw [hy0, e0]; show 15 / 16 * 8 + 1 * (y 0).val < 8; omega), hidx]
  · obtain rfl : t = ⟨31, lt31⟩ := Fin.ext ht
    rw [if_neg (by rw [hy0, e0]; show ¬ (31 / 16 * 8 + 1 * (y 0).val < 8); omega), hidx]

/-- A point that writes the first output back writes its block of `finalY`. -/
theorem flushed_y (c : Dev nD) (t : Fin cfg0.N) (hf : (cfg0.win 3).flush t = true) :
    (dat0 V c).flushed 3 t = ((cfg0.win 3).blk t).view.read (Elt F) (finalY V c) := by
  have hN : t.val < 32 := lt_of_lt_of_eq t.isLt (show cfg0.N = 32 from N_0)
  have h15 : t.val % 16 = 15 := (flush0_3 t).mp hf
  obtain ⟨-, -, -, -, -, -, e0, e1⟩ := Blocks.idx0 t
  show (cfg0.win 3).cut (grid0.coords t) ((dat0 V c).after 3 t) = _
  rw [after0_3]
  funext y
  show (outsAt0 V c t.val t.isLt).2 y = finalY V c (((cfg0.win 3).blk t).view.emb y)
  have hy0 : ((((cfg0.win 3).blk t).view.emb y) 0).val = win0_3.index t (0 : Fin 2) * 8 + 1 * (y 0).val := rfl
  have hy1 : ((((cfg0.win 3).blk t).view.emb y) 1).val = win0_3.index t (1 : Fin 2) * 2048 + 1 * (y 1).val := rfl
  have y0 : (y 0).val < 8 := (y 0).isLt
  have y1 : (y 1).val < 2048 := (y 1).isLt
  have hidx : (ix2 (⟨((((cfg0.win 3).blk t).view.emb y) 0).val % 8, Nat.mod_lt _ (by decide)⟩ : Fin 8)
      (⟨((((cfg0.win 3).blk t).view.emb y) 1).val, idx2_lt1 _⟩ : Fin 2048) : S8x2048.Idx) = y := by
    funext a
    apply Fin.ext
    match a with
    | ⟨0, _⟩ => show ((((cfg0.win 3).blk t).view.emb y) 0).val % 8 = (y 0).val; rw [hy0]; omega
    | ⟨1, _⟩ => show ((((cfg0.win 3).blk t).view.emb y) 1).val = (y 1).val; rw [hy1, e1]; omega
  unfold finalY
  rcases (by omega : t.val = 15 ∨ t.val = 31) with ht | ht
  · obtain rfl : t = ⟨15, lt15⟩ := Fin.ext ht
    rw [if_pos (by rw [hy0, e0]; show 15 / 16 * 8 + 1 * (y 0).val < 8; omega), hidx]
  · obtain rfl : t = ⟨31, lt31⟩ := Fin.ext ht
    rw [if_neg (by rw [hy0, e0]; show ¬ (31 / 16 * 8 + 1 * (y 0).val < 8); omega), hidx]

/-- An index of the first output array is in point `t`'s block iff each coordinate is in the block's range on its axis. -/
theorem mem_blk_x (t : Fin cfg0.N) (i : S16x2048.Idx) :
    i ∈ ((cfg0.win 2).blk t).view.set ↔ ∀ a : Fin 2, win0_2.index t a * S8x2048.size a ≤ (i a).val ∧ (i a).val < win0_2.index t a * S8x2048.size a + S8x2048.size a := by
  show i ∈ ((View.whole main_v2_0).slice (win0_2.rect t)).set ↔ _
  rw [View.set_slice_whole, Rect.mem_set_unit]
  exact Iff.rfl

/-- Row 0 of the first output array after the grid is row 0 of the buffer after point 15. -/
theorem arrX_row0 (c : Dev nD) (j : Fin 2048) :
    (dat0 V c).arrAt 2 cfg0.N (ix2 (0 : Fin 16) j : S16x2048.Idx) = (outsAt0 V c 15 lt15).1 (ix2 (0 : Fin 8) j) := by
  obtain ⟨-, -, -, -, e0, e1, -⟩ := Blocks.idx0 ⟨15, lt15⟩
  refine ((dat0 V c).arrAt_apply_of_mem 2 (finalX V c) (flushed_x V c) cfg0.N ⟨15, lt15⟩ _ lt15 ((flush0_2 _).mpr rfl) ?_).trans ?_
  · rw [mem_blk_x]
    intro a
    have hj : j.val < 2048 := j.isLt
    match a with
    | ⟨0, _⟩ => show win0_2.index ⟨15, lt15⟩ (0 : Fin 2) * 8 ≤ 0 ∧ 0 < win0_2.index ⟨15, lt15⟩ (0 : Fin 2) * 8 + 8; rw [e0]; show 15 / 16 * 8 ≤ 0 ∧ 0 < 15 / 16 * 8 + 8; omega
    | ⟨1, _⟩ => show win0_2.index ⟨15, lt15⟩ (1 : Fin 2) * 2048 ≤ j.val ∧ j.val < win0_2.index ⟨15, lt15⟩ (1 : Fin 2) * 2048 + 2048; rw [e1]; omega
  · unfold finalX
    refine (if_pos (show (0 : ℕ) < 8 by decide)).trans (congrArg _ ?_)
    funext a
    apply Fin.ext
    match a with
    | ⟨0, _⟩ => rfl
    | ⟨1, _⟩ => rfl

/-- Row 8 of the first output array after the grid is row 0 of the buffer after point 31. -/
theorem arrX_row8 (c : Dev nD) (j : Fin 2048) :
    (dat0 V c).arrAt 2 cfg0.N (ix2 (8 : Fin 16) j : S16x2048.Idx) = (outsAt0 V c 31 lt31).1 (ix2 (0 : Fin 8) j) := by
  obtain ⟨-, -, -, -, e0, e1, -⟩ := Blocks.idx0 ⟨31, lt31⟩
  refine ((dat0 V c).arrAt_apply_of_mem 2 (finalX V c) (flushed_x V c) cfg0.N ⟨31, lt31⟩ _ lt31 ((flush0_2 _).mpr rfl) ?_).trans ?_
  · rw [mem_blk_x]
    intro a
    have hj : j.val < 2048 := j.isLt
    match a with
    | ⟨0, _⟩ => show win0_2.index ⟨31, lt31⟩ (0 : Fin 2) * 8 ≤ 8 ∧ 8 < win0_2.index ⟨31, lt31⟩ (0 : Fin 2) * 8 + 8; rw [e0]; show 31 / 16 * 8 ≤ 8 ∧ 8 < 31 / 16 * 8 + 8; omega
    | ⟨1, _⟩ => show win0_2.index ⟨31, lt31⟩ (1 : Fin 2) * 2048 ≤ j.val ∧ j.val < win0_2.index ⟨31, lt31⟩ (1 : Fin 2) * 2048 + 2048; rw [e1]; omega
  · unfold finalX
    refine (if_neg (show ¬ ((8 : ℕ) < 8) by decide)).trans (congrArg _ ?_)
    funext a
    apply Fin.ext
    match a with
    | ⟨0, _⟩ => exact (by decide : (8 % 16) % 8 = 0 % 8)
    | ⟨1, _⟩ => rfl

/-- An index of the second output array is in point `t`'s block iff each coordinate is in the block's range on its axis. -/
theorem mem_blk_y (t : Fin cfg0.N) (i : S16x2048.Idx) :
    i ∈ ((cfg0.win 3).blk t).view.set ↔ ∀ a : Fin 2, win0_3.index t a * S8x2048.size a ≤ (i a).val ∧ (i a).val < win0_3.index t a * S8x2048.size a + S8x2048.size a := by
  show i ∈ ((View.whole main_v2_1).slice (win0_3.rect t)).set ↔ _
  rw [View.set_slice_whole, Rect.mem_set_unit]
  exact Iff.rfl

/-- Row 0 of the second output array after the grid is row 0 of the buffer after point 15. -/
theorem arrY_row0 (c : Dev nD) (j : Fin 2048) :
    (dat0 V c).arrAt 3 cfg0.N (ix2 (0 : Fin 16) j : S16x2048.Idx) = (outsAt0 V c 15 lt15).2 (ix2 (0 : Fin 8) j) := by
  obtain ⟨-, -, -, -, -, -, e0, e1⟩ := Blocks.idx0 ⟨15, lt15⟩
  refine ((dat0 V c).arrAt_apply_of_mem 3 (finalY V c) (flushed_y V c) cfg0.N ⟨15, lt15⟩ _ lt15 ((flush0_3 _).mpr rfl) ?_).trans ?_
  · rw [mem_blk_y]
    intro a
    have hj : j.val < 2048 := j.isLt
    match a with
    | ⟨0, _⟩ => show win0_3.index ⟨15, lt15⟩ (0 : Fin 2) * 8 ≤ 0 ∧ 0 < win0_3.index ⟨15, lt15⟩ (0 : Fin 2) * 8 + 8; rw [e0]; show 15 / 16 * 8 ≤ 0 ∧ 0 < 15 / 16 * 8 + 8; omega
    | ⟨1, _⟩ => show win0_3.index ⟨15, lt15⟩ (1 : Fin 2) * 2048 ≤ j.val ∧ j.val < win0_3.index ⟨15, lt15⟩ (1 : Fin 2) * 2048 + 2048; rw [e1]; omega
  · unfold finalY
    refine (if_pos (show (0 : ℕ) < 8 by decide)).trans (congrArg _ ?_)
    funext a
    apply Fin.ext
    match a with
    | ⟨0, _⟩ => rfl
    | ⟨1, _⟩ => rfl

/-- Row 8 of the second output array after the grid is row 0 of the buffer after point 31. -/
theorem arrY_row8 (c : Dev nD) (j : Fin 2048) :
    (dat0 V c).arrAt 3 cfg0.N (ix2 (8 : Fin 16) j : S16x2048.Idx) = (outsAt0 V c 31 lt31).2 (ix2 (0 : Fin 8) j) := by
  obtain ⟨-, -, -, -, -, -, e0, e1⟩ := Blocks.idx0 ⟨31, lt31⟩
  refine ((dat0 V c).arrAt_apply_of_mem 3 (finalY V c) (flushed_y V c) cfg0.N ⟨31, lt31⟩ _ lt31 ((flush0_3 _).mpr rfl) ?_).trans ?_
  · rw [mem_blk_y]
    intro a
    have hj : j.val < 2048 := j.isLt
    match a with
    | ⟨0, _⟩ => show win0_3.index ⟨31, lt31⟩ (0 : Fin 2) * 8 ≤ 8 ∧ 8 < win0_3.index ⟨31, lt31⟩ (0 : Fin 2) * 8 + 8; rw [e0]; show 31 / 16 * 8 ≤ 8 ∧ 8 < 31 / 16 * 8 + 8; omega
    | ⟨1, _⟩ => show win0_3.index ⟨31, lt31⟩ (1 : Fin 2) * 2048 ≤ j.val ∧ j.val < win0_3.index ⟨31, lt31⟩ (1 : Fin 2) * 2048 + 2048; rw [e1]; omega
  · unfold finalY
    refine (if_neg (show ¬ ((8 : ℕ) < 8) by decide)).trans (congrArg _ ?_)
    funext a
    apply Fin.ext
    match a with
    | ⟨0, _⟩ => exact (by decide : (8 % 16) % 8 = 0 % 8)
    | ⟨1, _⟩ => rfl

end Cert.KernelIdeal.ColFinal

end
-- ==== Proof.DotSums.lean ====
/-
  The second grid of kernel calls: the dot product of the two vectors of row sums. One call sees a tile of 512 rows of
  each input, the two rows of reciprocal column scales, and an 8-by-128 output block of which only ENTRY (0, 0) is
  ever read afterwards. At the first call of a run of sixteen the block is zeroed and then entry (0, 0) receives
  `0 + (the tile's sum of products of row sums)`; at every later call it receives
  `(entry (0, 0) as the call before left it) + (the tile's sum of products of row sums)`. This module reads entry
  (0, 0) of what each kind of call leaves, from the list of stores the symbolic run of the body found: the newest
  store is the one-entry store at the block's corner.
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.DotSums

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]

/-- The zero offsets, spelt as a constant function. -/
theorem hz : (![0, 0] : Fin 2 → Nat) = fun _ => 0 := funext fun a => by fin_cases a <;> rfl

/-- The corner entry of an 8-by-128 block, as a one-entry block. -/
abbrev corner (xo : Vec F S8x128 .f32) : Vec F S1x1 .f32 :=
  View.ld xo (Rect.unit (s := S8x128) ![0, 0] S1x1.size inb_S8x128_S1x1_0_0)

/-- The corner block's one entry is the block's entry `(0, 0)`. -/
theorem corner_apply (xo : Vec F S8x128 .f32) :
    corner xo (ix2 (0 : Fin 1) (0 : Fin 1)) = xo (ix2 (0 : Fin 8) (0 : Fin 128)) := by
  show xo _ = xo _
  congr 1
  funext a
  apply Fin.ext
  match a with
  | ⟨0, _⟩ => rfl
  | ⟨1, _⟩ => rfl

/-- The corner lies at position `(0, 0)` of the one-entry store at offsets `(0, 0)`. -/
theorem corner_pos : ∀ a : Fin 2,
    (((ix2 (0 : Fin 8) (0 : Fin 128) : S8x128.Idx)) a).val = (![0, 0] : Fin 2 → Nat) a + (((ix2 (0 : Fin 1) (0 : Fin 1) : S1x1.Idx)) a).val := by
  intro a
  match a with
  | ⟨0, _⟩ => rfl
  | ⟨1, _⟩ => rfl

/-- A later call of a run: the corner of what it leaves is the accumulating store's payload, computed from the two
    input tiles, the two rows of scales, and the corner of what the call before left. -/
theorem later_corner (c : Dev nD) (i : grid1.Coords) (a2 : Memref sig .tc .vmem S512x2048 .f32) (h2 : a2.IsWhole) (a3 : Memref sig .tc .vmem S512x2048 .f32) (h3 : a3.IsWhole)
    (a4 : Memref sig .tc .vmem S1x2048 .f32) (h4 : a4.IsWhole) (a5 : Memref sig .tc .vmem S1x2048 .f32) (h5 : a5.IsWhole) (a6 : Memref sig .tc .vmem S8x128 .f32) (h6 : a6.IsWhole) (hc : ¬cond1_0 i)
    (x0 x1 : Vec F S512x2048 .f32) (x2 x3 : Vec F S1x2048 .f32) (xo4 : Vec F S8x128 .f32) :
    out1_B_4 c i a2 h2 a3 h3 a4 h4 a5 h5 a6 h6 hc x0 x1 x2 x3 xo4 (ix2 (0 : Fin 8) (0 : Fin 128))
      = k1_pay2 x0 x1 x2 x3 (corner xo4) (ix2 (0 : Fin 1) (0 : Fin 1)) := by
  unfold out1_B_4 kernelRun1_B
  dsimp only
  refine (View.read_writes_cons_unit_of_mem a6.view (h6.unread xo4) inb_S8x128_S1x1_0_0 _ [] (ix2 (0 : Fin 8) (0 : Fin 128))
    (ix2 (0 : Fin 1) (0 : Fin 1)) rfl corner_pos).trans ?_
  simp only [View.readAt_eq_ld, h2.read_unread, h3.read_unread, h4.read_unread, h5.read_unread, h6.read_unread,
    View.ld_unit_zero (S := S512x2048) hz, View.ld_unit_zero (S := S1x2048) hz]

/-- The first call of a run: the corner of what it leaves is the accumulating store's payload over the corner of the
    zero block just stored. -/
theorem first_corner (c : Dev nD) (i : grid1.Coords) (a2 : Memref sig .tc .vmem S512x2048 .f32) (h2 : a2.IsWhole) (a3 : Memref sig .tc .vmem S512x2048 .f32) (h3 : a3.IsWhole)
    (a4 : Memref sig .tc .vmem S1x2048 .f32) (h4 : a4.IsWhole) (a5 : Memref sig .tc .vmem S1x2048 .f32) (h5 : a5.IsWhole) (a6 : Memref sig .tc .vmem S8x128 .f32) (h6 : a6.IsWhole) (hc : cond1_0 i)
    (x0 x1 : Vec F S512x2048 .f32) (x2 x3 : Vec F S1x2048 .f32) :
    out1_A_4 c i a2 h2 a3 h3 a4 h4 a5 h5 a6 h6 hc x0 x1 x2 x3 (ix2 (0 : Fin 8) (0 : Fin 128))
      = k1_pay2 x0 x1 x2 x3 (corner (k1_pay1 (F := F))) (ix2 (0 : Fin 1) (0 : Fin 1)) := by
  unfold out1_A_4 kernelRun1_A
  dsimp only
  sl_unfold_words
  refine (View.read_writes_cons_unit_of_mem VO1_4 VO1_4.junk inb_S8x128_S1x1_0_0 _ _ (ix2 (0 : Fin 8) (0 : Fin 128))
    (ix2 (0 : Fin 1) (0 : Fin 1)) rfl corner_pos).trans ?_
  simp only [View.readAt_eq_ld, h2.read_unread, h3.read_unread, h4.read_unread, h5.read_unread,
    View.ld_unit_zero (S := S512x2048) hz, View.ld_unit_zero (S := S1x2048) hz, View.readCov_eq_canon',
    View.canon_unit_zero (S := S8x128) hz]
  rfl

end Cert.KernelIdeal.DotSums

end
-- ==== Proof.DotAcc.lean ====
/-
  The second grid's accumulation, at the ideal instance. For a row `p` of the flattened inputs let `rowProd p` be the
  product of the two scaled row sums: (sum over columns k of x(p, k)·s₁(k)) · (sum over columns k of y(p, k)·s₂(k)),
  where s₁ and s₂ are the two rows of reciprocal column scales the grid is given. The corner entry of the output's
  staging buffer after point `n` is a running total: at the first point of a run of sixteen it is
  `0 + (sum over the point's 512 rows of rowProd)`, and at every later point it is the value after the point before plus
  that point's tile sum. Hence after the last point of run `q` it is `0 +` the sum of the run's sixteen tile sums — by the
  general fold over a run of consecutive points.
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws
import proofs.«122433_j8693013807330_2_alg».proof.Proof.Blocks
import proofs.«122433_j8693013807330_2_alg».proof.Proof.DotSums
import proofs.«122433_j8693013807330_2_alg».proof.Proof.Payloads
import proofs.«122433_j8693013807330_2_alg».proof.Proof.Algebra
set_option maxRecDepth 16384

noncomputable section

open scoped BigOperators

namespace Cert.KernelIdeal.DotAcc

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

open Cert.Algebra (tileSum tileSum_eq)

variable (V : (c : Dev nD) → (b : Ref sig .tc) → Buf (Elt Ideal) ((c : Thread nD τ).loc b))

/-- The two flattened inputs and the two rows of reciprocal scales as the grid finds them, and the windows' blocks at a
    point, typed as matrices. -/
abbrev inX (c : Dev nD) : Vec Ideal S16384x2048 .f32 := V c main_v0
abbrev inY (c : Dev nD) : Vec Ideal S16384x2048 .f32 := V c main_v1
abbrev scX (c : Dev nD) : Vec Ideal S1x2048 .f32 := V c main_v13
abbrev scY (c : Dev nD) : Vec Ideal S1x2048 .f32 := V c main_v18
abbrev tileX (c : Dev nD) (n : ℕ) (h : n < cfg1.N) : Vec Ideal S512x2048 .f32 := iblk1 V c 0 ⟨n, h⟩
abbrev tileY (c : Dev nD) (n : ℕ) (h : n < cfg1.N) : Vec Ideal S512x2048 .f32 := iblk1 V c 1 ⟨n, h⟩
abbrev tscX (c : Dev nD) (n : ℕ) (h : n < cfg1.N) : Vec Ideal S1x2048 .f32 := iblk1 V c 2 ⟨n, h⟩
abbrev tscY (c : Dev nD) (n : ℕ) (h : n < cfg1.N) : Vec Ideal S1x2048 .f32 := iblk1 V c 3 ⟨n, h⟩

/-- The product of the two scaled row sums of row `p`. -/
def rowProd (c : Dev nD) : Fin 16384 → EReal := fun p =>
  (∑ k : Fin 2048, inX V c (ix2 p k) * scX V c (ix2 (0 : Fin 1) k)) * (∑ k : Fin 2048, inY V c (ix2 p k) * scY V c (ix2 (0 : Fin 1) k))

/-- The corner of the output's staging buffer after point `n` (a function of the one-element index, for the fold). -/
def cornerD (c : Dev nD) (n : ℕ) (h : n < cfg1.N) : Unit → EReal := fun _ => outsAt1 V c n h (ix2 (0 : Fin 8) (0 : Fin 128))

/-- The sum over a point's tile of the products of the scaled row sums is that point's tile sum. -/
theorem tile_prod (c : Dev nD) (n : ℕ) (h : n < cfg1.N) :
    (∑ r : Fin 512,
        (∑ k : Fin 2048, tileX V c n h (ix2 r k) * tscX V c n h (ix2 (0 : Fin 1) k))
          * (∑ k : Fin 2048, tileY V c n h (ix2 r k) * tscY V c n h (ix2 (0 : Fin 1) k)))
      = tileSum (rowProd V c) n := by
  have hn : n < 32 := lt_of_lt_of_eq h (show cfg1.N = 32 from N_1)
  rw [tileSum_eq _ n hn]
  refine Finset.sum_congr rfl fun (r : Fin 512) _ => ?_
  have hr : r.val < 512 := r.isLt
  have hb : 512 * n + r.val < 16384 := by omega
  unfold rowProd
  congr 1
  · refine Finset.sum_congr rfl fun (k : Fin 2048) _ => ?_
    unfold tileX tscX
    rw [Blocks.tile1_x V c ⟨n, h⟩ r k hb, Blocks.scale1_x V c ⟨n, h⟩ k]
  · refine Finset.sum_congr rfl fun (k : Fin 2048) _ => ?_
    unfold tileY tscY
    rw [Blocks.tile1_y V c ⟨n, h⟩ r k hb, Blocks.scale1_y V c ⟨n, h⟩ k]

/-- At the first point of a run, the corner restarts at zero plus the point's tile sum. -/
theorem cornerD_first (c : Dev nD) (n : ℕ) (h : n < cfg1.N) (h0 : n % 16 = 0) :
    cornerD V c n h = fun u => (fun _ => (0 : EReal)) u + tileSum (rowProd V c) n := by
  funext u
  unfold cornerD
  rw [outsAt1_A V c ⟨n, h⟩ h0, DotSums.first_corner, Payloads.dot_step, tile_prod V c n h, DotSums.corner_apply, Payloads.zero_block_d]

/-- At a later point of a run, the corner is what the point before left plus the point's tile sum. -/
theorem cornerD_later (c : Dev nD) (n : ℕ) (h : n + 1 < cfg1.N) (h0 : ¬(n + 1) % 16 = 0) :
    cornerD V c (n + 1) h = fun u => cornerD V c n (Nat.lt_of_succ_lt h) u + tileSum (rowProd V c) (n + 1) := by
  funext u
  unfold cornerD
  rw [outsAt1_B V c ⟨n + 1, h⟩ h0, DotSums.later_corner, Payloads.dot_step, tile_prod V c (n + 1) h, DotSums.corner_apply]
  rfl

/-- After the last point of run `q`, the corner is zero plus the run's sixteen tile sums. -/
theorem cornerD_run (c : Dev nD) (q : ℕ) (h : 16 * q + 15 < cfg1.N) :
    cornerD V c (16 * q + 15) h () = 0 + ∑ s ∈ Finset.range 16, tileSum (rowProd V c) (16 * q + s) := by
  rw [Pipeline.eq_accAt (cornerD V c) 16 (fun n _ u => (fun _ => (0 : EReal)) u + tileSum (rowProd V c) n)
    (fun n _ acc u => acc u + tileSum (rowProd V c) n) (fun n h h0 => cornerD_first V c n h h0) (fun n h h0 => cornerD_later V c n h h0) q 15 (by decide) h]
  exact Pipeline.accAt_add_apply _ _ (fun _ => (0 : EReal)) (fun n _ => tileSum (rowProd V c) n) (16 * q) 15 (fun _ _ => rfl)
    (fun _ _ _ _ _ _ => rfl) 15 le_rfl h ()

end Cert.KernelIdeal.DotAcc

end
-- ==== Proof.DotFinal.lean ====
/-
  What the second grid leaves in its output array. The array has 16 rows of 128: block 0 (rows 0–7) belongs to the first
  run of sixteen points and is written back once, after point 15; block 1 (rows 8–15) belongs to the second run and is
  written back after point 31. Only the entries (0, 0) and (8, 0) are read afterwards: the first is the corner of the
  staging buffer after point 15, the second the corner of the buffer after point 31.
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws
import proofs.«122433_j8693013807330_2_alg».proof.Proof.Blocks
set_option maxRecDepth 16384

noncomputable section

open scoped BigOperators

namespace Cert.KernelIdeal.DotFinal

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem lt15 : 15 < cfg1.N := by rw [show cfg1.N = 32 from N_1]; decide
theorem lt31 : 31 < cfg1.N := by rw [show cfg1.N = 32 from N_1]; decide

/-- The output array after the grid: the buffer after point 15 on rows 0–7, the buffer after point 31 on rows 8–15. -/
def finalD (c : Dev nD) : Vec F S16x128 .f32 := fun i =>
  if (i 0).val < 8 then (outsAt1 V c 15 lt15) (ix2 ⟨(i 0).val % 8, Nat.mod_lt _ (by decide)⟩ ⟨(i 1).val, idx2_lt1 i⟩)
  else (outsAt1 V c 31 lt31) (ix2 ⟨(i 0).val % 8, Nat.mod_lt _ (by decide)⟩ ⟨(i 1).val, idx2_lt1 i⟩)

/-- A point that writes the output back writes its block of `finalD`. -/
theorem flushed_d (c : Dev nD) (t : Fin cfg1.N) (hf : (cfg1.win 4).flush t = true) :
    (dat1 V c).flushed 4 t = ((cfg1.win 4).blk t).view.read (Elt F) (finalD V c) := by
  have hN : t.val < 32 := lt_of_lt_of_eq t.isLt (show cfg1.N = 32 from N_1)
  have h15 : t.val % 16 = 15 := (flush1_4 t).mp hf
  obtain ⟨-, -, -, -, -, -, -, -, e0, e1⟩ := Blocks.idx1 t
  show (cfg1.win 4).cut (grid1.coords t) ((dat1 V c).after 4 t) = _
  rw [after1_4]
  funext y
  show (outsAt1 V c t.val t.isLt) y = finalD V c (((cfg1.win 4).blk t).view.emb y)
  have hy0 : ((((cfg1.win 4).blk t).view.emb y) 0).val = win1_4.index t (0 : Fin 2) * 8 + 1 * (y 0).val := rfl
  have hy1 : ((((cfg1.win 4).blk t).view.emb y) 1).val = win1_4.index t (1 : Fin 2) * 128 + 1 * (y 1).val := rfl
  have y0 : (y 0).val < 8 := (y 0).isLt
  have y1 : (y 1).val < 128 := (y 1).isLt
  have hidx : (ix2 (⟨((((cfg1.win 4).blk t).view.emb y) 0).val % 8, Nat.mod_lt _ (by decide)⟩ : Fin 8)
      (⟨((((cfg1.win 4).blk t).view.emb y) 1).val, idx2_lt1 _⟩ : Fin 128) : S8x128.Idx) = y := by
    funext a
    apply Fin.ext
    match a with
    | ⟨0, _⟩ => show ((((cfg1.win 4).blk t).view.emb y) 0).val % 8 = (y 0).val; rw [hy0]; omega
    | ⟨1, _⟩ => show ((((cfg1.win 4).blk t).view.emb y) 1).val = (y 1).val; rw [hy1, e1]; omega
  unfold finalD
  rcases (by omega : t.val = 15 ∨ t.val = 31) with ht | ht
  · obtain rfl : t = ⟨15, lt15⟩ := Fin.ext ht
    rw [if_pos (by rw [hy0, e0]; show 15 / 16 * 8 + 1 * (y 0).val < 8; omega), hidx]
  · obtain rfl : t = ⟨31, lt31⟩ := Fin.ext ht
    rw [if_neg (by rw [hy0, e0]; show ¬ (31 / 16 * 8 + 1 * (y 0).val < 8); omega), hidx]

/-- An index of the output array is in point `t`'s block iff each coordinate is in the block's range on its axis. -/
theorem mem_blk_d (t : Fin cfg1.N) (i : S16x128.Idx) :
    i ∈ ((cfg1.win 4).blk t).view.set ↔ ∀ a : Fin 2, win1_4.index t a * S8x128.size a ≤ (i a).val ∧ (i a).val < win1_4.index t a * S8x128.size a + S8x128.size a := by
  show i ∈ ((View.whole main_v19).slice (win1_4.rect t)).set ↔ _
  rw [View.set_slice_whole, Rect.mem_set_unit]
  exact Iff.rfl

/-- Entry (0, 0) of the output array after the grid is the corner of the buffer after point 15. -/
theorem arrD_0 (c : Dev nD) :
    (dat1 V c).arrAt 4 cfg1.N (ix2 (0 : Fin 16) (0 : Fin 128) : S16x128.Idx) = (outsAt1 V c 15 lt15) (ix2 (0 : Fin 8) (0 : Fin 128)) := by
  obtain ⟨-, -, -, -, -, -, -, -, e0, e1⟩ := Blocks.idx1 ⟨15, lt15⟩
  refine ((dat1 V c).arrAt_apply_of_mem 4 (finalD V c) (flushed_d V c) cfg1.N ⟨15, lt15⟩ _ lt15 ((flush1_4 _).mpr rfl) ?_).trans ?_
  · rw [mem_blk_d]
    intro a
    match a with
    | ⟨0, _⟩ => show win1_4.index ⟨15, lt15⟩ (0 : Fin 2) * 8 ≤ 0 ∧ 0 < win1_4.index ⟨15, lt15⟩ (0 : Fin 2) * 8 + 8; rw [e0]; show 15 / 16 * 8 ≤ 0 ∧ 0 < 15 / 16 * 8 + 8; omega
    | ⟨1, _⟩ => show win1_4.index ⟨15, lt15⟩ (1 : Fin 2) * 128 ≤ 0 ∧ 0 < win1_4.index ⟨15, lt15⟩ (1 : Fin 2) * 128 + 128; rw [e1]; omega
  · unfold finalD
    exact (if_pos (show (0 : ℕ) < 8 by decide)).trans rfl

/-- Entry (8, 0) of the output array after the grid is the corner of the buffer after point 31. -/
theorem arrD_8 (c : Dev nD) :
    (dat1 V c).arrAt 4 cfg1.N (ix2 (8 : Fin 16) (0 : Fin 128) : S16x128.Idx) = (outsAt1 V c 31 lt31) (ix2 (0 : Fin 8) (0 : Fin 128)) := by
  obtain ⟨-, -, -, -, -, -, -, -, e0, e1⟩ := Blocks.idx1 ⟨31, lt31⟩
  refine ((dat1 V c).arrAt_apply_of_mem 4 (finalD V c) (flushed_d V c) cfg1.N ⟨31, lt31⟩ _ lt31 ((flush1_4 _).mpr rfl) ?_).trans ?_
  · rw [mem_blk_d]
    intro a
    match a with
    | ⟨0, _⟩ => show win1_4.index ⟨31, lt31⟩ (0 : Fin 2) * 8 ≤ 8 ∧ 8 < win1_4.index ⟨31, lt31⟩ (0 : Fin 2) * 8 + 8; rw [e0]; show 31 / 16 * 8 ≤ 8 ∧ 8 < 31 / 16 * 8 + 8; omega
    | ⟨1, _⟩ => show win1_4.index ⟨31, lt31⟩ (1 : Fin 2) * 128 ≤ 0 ∧ 0 < win1_4.index ⟨31, lt31⟩ (1 : Fin 2) * 128 + 128; rw [e1]; omega
  · unfold finalD
    exact (if_neg (show ¬ ((8 : ℕ) < 8) by decide)).trans rfl

end Cert.KernelIdeal.DotFinal

end
-- ==== Proof.HostGlue.lean ====
/-
  The host's arithmetic between and after the two kernel calls, as pure functions of the arrays it reads, and
  what each computes entry by entry.

  Between the calls, from a 16 × 2048 array holding two partial column sums (rows 0 and 8): the reciprocal of
  (the square root of their sum, plus the small constant), column by column. After the second call, from a
  16 × 128 array holding two partial totals (entries (0, 0) and (8, 0)): their sum divided by the number of
  Gram entries, squared.
-/
import proofs.«122433_j8693013807330_2_alg».proof.KernelIdeal
import proofs.«122433_j8693013807330_2_alg».proof.Proof.Spec
import Idealize.ShloMosaic.Lib.Pipeline.Value
import Idealize.ShloMosaic.Lib.ValueIdx
import Idealize.ShloMosaic.PureOps.Ideal.Laws

noncomputable section

namespace Cert.KernelIdeal.HostGlue

open Cert.KernelIdeal Cert.KernelIdeal.Facts₀ Idealize.ShloMosaic Idealize.ShloMosaic.ValueIdx

variable [Cert.KernelIdeal.Facts]

/-- The reciprocal column scales: one over (the square root of row 0 plus row 8, plus the small constant). -/
def recipScale (A : FVec Ideal S16x2048 .f32) : FVec Ideal S1x2048 .f32 :=
  Host.divf (F := Ideal) (broadcastInDim S1x2048 ![] bcast_S_S1x2048 (constant (F := Ideal) S_ .f32 0x3F800000#32))
    (addf
      (Host.sqrt (F := Ideal)
        (addf (extractStridedSlice S1x2048 ![0, 0] A slices_S16x2048_S1x2048_0_0)
          (extractStridedSlice S1x2048 ![8, 0] A slices_S16x2048_S1x2048_8_0)))
      (broadcastInDim S1x2048 ![] bcast_S_S1x2048 (constant (F := Ideal) S_ .f32 0x358637BD#32)))

/-- Row 0 of the 16 × 2048 array, read through the one-row slice at offset 0. -/
theorem slice0_apply (A : FVec Ideal S16x2048 .f32) (j : Fin 2048) :
    extractStridedSlice S1x2048 ![0, 0] A slices_S16x2048_S1x2048_0_0 (ix2 (0 : Fin 1) j) = A (ix2 (0 : Fin 16) j) :=
  extractStridedSlice_apply _ A _ _ _ fun a => by
    match a with
    | ⟨0, _⟩ => rfl
    | ⟨1, _⟩ => exact (Nat.zero_add _).symm

/-- Row 8 of the 16 × 2048 array, read through the one-row slice at offset 8. -/
theorem slice8_apply (A : FVec Ideal S16x2048 .f32) (j : Fin 2048) :
    extractStridedSlice S1x2048 ![8, 0] A slices_S16x2048_S1x2048_8_0 (ix2 (0 : Fin 1) j) = A (ix2 (8 : Fin 16) j) :=
  extractStridedSlice_apply _ A _ _ _ fun a => by
    match a with
    | ⟨0, _⟩ => rfl
    | ⟨1, _⟩ => exact (Nat.zero_add _).symm

/-- Column `j` of the reciprocal scales: the numerator one divided by (the square root of the two partial sums'
    total, plus the small constant). A broadcast scalar constant reads the constant at every index. -/
theorem recipScale_apply (A : FVec Ideal S16x2048 .f32) (j : Fin 2048) :
    recipScale A (ix2 (0 : Fin 1) j)
      = Ideal.div Cert.Spec.one (Ideal.sqrt (A (ix2 (0 : Fin 16) j) + A (ix2 (8 : Fin 16) j)) + Cert.Spec.eps) := by
  show Ideal.div (Ideal.ofBits .f32 0x3F800000#32)
      (Ideal.sqrt (extractStridedSlice S1x2048 ![0, 0] A slices_S16x2048_S1x2048_0_0 (ix2 (0 : Fin 1) j)
          + extractStridedSlice S1x2048 ![8, 0] A slices_S16x2048_S1x2048_8_0 (ix2 (0 : Fin 1) j))
        + Ideal.ofBits .f32 0x358637BD#32) = _
  rw [slice0_apply, slice8_apply]
  rfl

/-- The closing arithmetic: the two partial totals' sum divided by the number of Gram entries, times itself. -/
def meanSqTail (B : FVec Ideal S16x128 .f32) : FVec Ideal S_ .f32 :=
  mulf
    (Host.divf (F := Ideal)
      (addf (shapeCast S_ (extractStridedSlice S1x1 ![0, 0] B slices_S16x128_S1x1_0_0) shapeCasts_S1x1_S_)
        (shapeCast S_ (extractStridedSlice S1x1 ![8, 0] B slices_S16x128_S1x1_8_0) shapeCasts_S1x1_S_))
      (constant (F := Ideal) S_ .f32 0x4A800000#32))
    (Host.divf (F := Ideal)
      (addf (shapeCast S_ (extractStridedSlice S1x1 ![0, 0] B slices_S16x128_S1x1_0_0) shapeCasts_S1x1_S_)
        (shapeCast S_ (extractStridedSlice S1x1 ![8, 0] B slices_S16x128_S1x1_8_0) shapeCasts_S1x1_S_))
      (constant (F := Ideal) S_ .f32 0x4A800000#32))

/-- The one entry of a 1 × 1 array and the one entry of a scalar sit at the same row-major position, 0. -/
theorem rowMajor_unit (i : S_.Idx) :
    (S1x1.rowMajor (ix2 (0 : Fin 1) (0 : Fin 1))).val = (S_.rowMajor i).val := by
  rw [Shape.rowMajor_val_two]
  exact (Shape.rowMajorPi_zero _ i).symm

/-- Entry (0, 0) of the 16 × 128 array, read through the 1 × 1 slice at offset (0, 0) reshaped to a scalar. -/
theorem scalar0_apply (B : FVec Ideal S16x128 .f32) (i : S_.Idx) :
    shapeCast S_ (extractStridedSlice S1x1 ![0, 0] B slices_S16x128_S1x1_0_0) shapeCasts_S1x1_S_ i
      = B (ix2 (0 : Fin 16) (0 : Fin 128)) := by
  rw [shapeCast_apply _ shapeCasts_S1x1_S_ i (ix2 (0 : Fin 1) (0 : Fin 1)) (rowMajor_unit i)]
  exact extractStridedSlice_apply _ B _ _ _ fun a => by
    match a with
    | ⟨0, _⟩ => rfl
    | ⟨1, _⟩ => rfl

/-- Entry (8, 0) of the 16 × 128 array, read through the 1 × 1 slice at offset (8, 0) reshaped to a scalar. -/
theorem scalar8_apply (B : FVec Ideal S16x128 .f32) (i : S_.Idx) :
    shapeCast S_ (extractStridedSlice S1x1 ![8, 0] B slices_S16x128_S1x1_8_0) shapeCasts_S1x1_S_ i
      = B (ix2 (8 : Fin 16) (0 : Fin 128)) := by
  rw [shapeCast_apply _ shapeCasts_S1x1_S_ i (ix2 (0 : Fin 1) (0 : Fin 1)) (rowMajor_unit i)]
  exact extractStridedSlice_apply _ B _ _ _ fun a => by
    match a with
    | ⟨0, _⟩ => rfl
    | ⟨1, _⟩ => rfl

/-- The closing arithmetic is the squared mean of the two partial totals' sum. -/
theorem meanSqTail_eq (B : FVec Ideal S16x128 .f32) :
    meanSqTail B
      = fun _ => Cert.Spec.meanSq (B (ix2 (0 : Fin 16) (0 : Fin 128)) + B (ix2 (8 : Fin 16) (0 : Fin 128))) := by
  funext i
  show Ideal.div
        (shapeCast S_ (extractStridedSlice S1x1 ![0, 0] B slices_S16x128_S1x1_0_0) shapeCasts_S1x1_S_ i
          + shapeCast S_ (extractStridedSlice S1x1 ![8, 0] B slices_S16x128_S1x1_8_0) shapeCasts_S1x1_S_ i)
        (Ideal.ofBits .f32 0x4A800000#32)
      * Ideal.div
        (shapeCast S_ (extractStridedSlice S1x1 ![0, 0] B slices_S16x128_S1x1_0_0) shapeCasts_S1x1_S_ i
          + shapeCast S_ (extractStridedSlice S1x1 ![8, 0] B slices_S16x128_S1x1_8_0) shapeCasts_S1x1_S_ i)
        (Ideal.ofBits .f32 0x4A800000#32) = _
  rw [scalar0_apply, scalar8_apply]
  rfl

end Cert.KernelIdeal.HostGlue

end
-- ==== Proof.KernelValue.lean ====
/-
  The value the kernel program returns, read back through its five segments. Write X and Y for the two arguments
  flattened to 16384 rows by 2048 columns (the first host stretch). The first grid leaves, in rows 0 and 8 of each of
  its two output arrays, the two halves of every column's sum of squares, so that row 0 + row 8 is the column's squared
  norm. The second host stretch turns that into the reciprocal of (norm + the small constant), a one-row array per
  input. The second grid leaves, in entries (0, 0) and (8, 0) of its output array, the two halves of the sum over the
  rows of the product of the two scaled row sums, so that their sum is that total. The last host stretch divides the
  total by the count and squares. On finite inputs the total equals the total of the Gram matrix of the two
  column-scaled inputs (the algebra module), which is what the reference computes.
-/
import proofs.«122433_j8693013807330_2_alg».proof.Proof.Gen.KernelIdeal.Frame
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws
import proofs.«122433_j8693013807330_2_alg».proof.Proof.KernelRun
import proofs.«122433_j8693013807330_2_alg».proof.Proof.ColAcc
import proofs.«122433_j8693013807330_2_alg».proof.Proof.ColFinal
import proofs.«122433_j8693013807330_2_alg».proof.Proof.DotAcc
import proofs.«122433_j8693013807330_2_alg».proof.Proof.DotFinal
import proofs.«122433_j8693013807330_2_alg».proof.Proof.HostGlue
import proofs.«122433_j8693013807330_2_alg».proof.Proof.Algebra
import proofs.«122433_j8693013807330_2_alg».proof.Proof.Spec
set_option maxRecDepth 16384

noncomputable section

open scoped BigOperators

namespace Cert.KernelIdeal.KValue

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

variable (m : (ℓ : Loc nD τ sig) → Buf (Elt Ideal) ℓ) (ρ : Dev nD → PrngReg)

/-- The first argument flattened to rows by columns. -/
abbrev X (c : Dev nD) : Cert.Spec.Mat :=
  shapeCast S16384x2048 (m ((c : Thread nD τ).loc main_arg0)) shapeCasts_S8x256x128x128_S16384x2048

/-- The second argument flattened to rows by columns. -/
abbrev Y (c : Dev nD) : Cert.Spec.Mat :=
  shapeCast S16384x2048 (m ((c : Thread nD τ).loc main_arg1)) shapeCasts_S8x256x128x128_S16384x2048

/-- The first grid's two output arrays, the two rows of reciprocal scales, and the second grid's output array, as the
    program's later segments find them, typed as matrices. -/
abbrev normsX (c : Dev nD) : Vec Ideal S16x2048 .f32 := V2 m ρ c main_v2_0
abbrev normsY (c : Dev nD) : Vec Ideal S16x2048 .f32 := V2 m ρ c main_v2_1
abbrev dots (c : Dev nD) : Vec Ideal S16x128 .f32 := V4 m ρ c main_v19

/-! ## The first host stretch: the two reshapes -/

theorem v1_x (c : Dev nD) : (V1 m ρ c main_v0 : Vec Ideal S16384x2048 .f32) = X m c := by
  show StableHlo.after hostOps0 (W0 m ρ c) (Proc.devRef .tc main_v0) = _
  after_results
  rfl

theorem v1_y (c : Dev nD) : (V1 m ρ c main_v1 : Vec Ideal S16384x2048 .f32) = Y m c := by
  show StableHlo.after hostOps0 (W0 m ρ c) (Proc.devRef .tc main_v1) = _
  after_results
  rfl

/-! ## The flattened inputs reach the second grid unchanged -/

theorem v3_x (c : Dev nD) : (V3 m ρ c main_v0 : Vec Ideal S16384x2048 .f32) = X m c := by
  have e2 : V2 m ρ c main_v0 = V1 m ρ c main_v0 := by
    show W2 m ρ c (Proc.devRef .tc (Pipeline.arrRef spec0 0)) = _
    rw [W2_arr]
    exact ((dat0 (V1 m ρ) c).arrAt_in 0 rfl _).trans (A_eq0 (V1 m ρ) c 0)
  have e3 : V3 m ρ c main_v0 = V2 m ρ c main_v0 := by
    show StableHlo.after hostOps1 (W2 m ρ c) (Proc.devRef .tc main_v0) = _
    after_results
  exact (e3.trans e2).trans (v1_x m ρ c)

theorem v3_y (c : Dev nD) : (V3 m ρ c main_v1 : Vec Ideal S16384x2048 .f32) = Y m c := by
  have e2 : V2 m ρ c main_v1 = V1 m ρ c main_v1 := by
    show W2 m ρ c (Proc.devRef .tc (Pipeline.arrRef spec0 1)) = _
    rw [W2_arr]
    exact ((dat0 (V1 m ρ) c).arrAt_in 1 rfl _).trans (A_eq0 (V1 m ρ) c 1)
  have e3 : V3 m ρ c main_v1 = V2 m ρ c main_v1 := by
    show StableHlo.after hostOps1 (W2 m ρ c) (Proc.devRef .tc main_v1) = _
    after_results
  exact (e3.trans e2).trans (v1_y m ρ c)

/-! ## The first grid: row 0 plus row 8 of each output is the column's squared norm -/

theorem colsq_x (c : Dev nD) (j : Fin 2048) :
    normsX m ρ c (ix2 (0 : Fin 16) j) + normsX m ρ c (ix2 (8 : Fin 16) j) = Cert.Spec.colSq (X m c) j := by
  have h0 : (outsAt0 (V1 m ρ) c 15 ColFinal.lt15).1 (ix2 (0 : Fin 8) j)
      = 0 + ∑ s ∈ Finset.range 16, Cert.Algebra.tileSum (ColAcc.sqX (V1 m ρ) c j) (0 + s) := ColAcc.rowX_run (V1 m ρ) c 0 ColFinal.lt15 j
  have h8 : (outsAt0 (V1 m ρ) c 31 ColFinal.lt31).1 (ix2 (0 : Fin 8) j)
      = 0 + ∑ s ∈ Finset.range 16, Cert.Algebra.tileSum (ColAcc.sqX (V1 m ρ) c j) (16 + s) := ColAcc.rowX_run (V1 m ρ) c 1 ColFinal.lt31 j
  have eA : normsX m ρ c = (dat0 (V1 m ρ) c).arrAt 2 cfg0.N := (hF0 m ρ c 2).symm
  rw [eA, ColFinal.arrX_row0, ColFinal.arrX_row8, h0, h8, zero_add, zero_add, Cert.Algebra.sum_two_runs_tiles]
  unfold Cert.Spec.colSq ColAcc.sqX
  dsimp only [ColAcc.inX]
  rw [v1_x]

theorem colsq_y (c : Dev nD) (j : Fin 2048) :
    normsY m ρ c (ix2 (0 : Fin 16) j) + normsY m ρ c (ix2 (8 : Fin 16) j) = Cert.Spec.colSq (Y m c) j := by
  have h0 : (outsAt0 (V1 m ρ) c 15 ColFinal.lt15).2 (ix2 (0 : Fin 8) j)
      = 0 + ∑ s ∈ Finset.range 16, Cert.Algebra.tileSum (ColAcc.sqY (V1 m ρ) c j) (0 + s) := ColAcc.rowY_run (V1 m ρ) c 0 ColFinal.lt15 j
  have h8 : (outsAt0 (V1 m ρ) c 31 ColFinal.lt31).2 (ix2 (0 : Fin 8) j)
      = 0 + ∑ s ∈ Finset.range 16, Cert.Algebra.tileSum (ColAcc.sqY (V1 m ρ) c j) (16 + s) := ColAcc.rowY_run (V1 m ρ) c 1 ColFinal.lt31 j
  have eA : normsY m ρ c = (dat0 (V1 m ρ) c).arrAt 3 cfg0.N := (hF0 m ρ c 3).symm
  rw [eA, ColFinal.arrY_row0, ColFinal.arrY_row8, h0, h8, zero_add, zero_add, Cert.Algebra.sum_two_runs_tiles]
  unfold Cert.Spec.colSq ColAcc.sqY
  dsimp only [ColAcc.inY]
  rw [v1_y]

/-! ## The second host stretch: the reciprocal column scales -/

theorem scale_x (c : Dev nD) (j : Fin 2048) :
    (V3 m ρ c main_v13 : Vec Ideal S1x2048 .f32) (ix2 (0 : Fin 1) j) = Ideal.div Cert.Spec.one (Cert.Spec.den (X m c) j) := by
  have e : (V3 m ρ c main_v13 : Vec Ideal S1x2048 .f32) = HostGlue.recipScale (normsX m ρ c) := by
    show StableHlo.after hostOps1 (W2 m ρ c) (Proc.devRef .tc main_v13) = _
    after_results
    rfl
  rw [e, HostGlue.recipScale_apply, colsq_x]
  rfl

theorem scale_y (c : Dev nD) (j : Fin 2048) :
    (V3 m ρ c main_v18 : Vec Ideal S1x2048 .f32) (ix2 (0 : Fin 1) j) = Ideal.div Cert.Spec.one (Cert.Spec.den (Y m c) j) := by
  have e : (V3 m ρ c main_v18 : Vec Ideal S1x2048 .f32) = HostGlue.recipScale (normsY m ρ c) := by
    show StableHlo.after hostOps1 (W2 m ρ c) (Proc.devRef .tc main_v18) = _
    after_results
    rfl
  rw [e, HostGlue.recipScale_apply, colsq_y]
  rfl

/-! ## The second grid: entry (0, 0) plus entry (8, 0) of its output is the total of the products of the row sums -/

theorem rowProd_eq (c : Dev nD) (p : Fin 16384) :
    DotAcc.rowProd (V3 m ρ) c p = Cert.Spec.rowSum (X m c) p * Cert.Spec.rowSum (Y m c) p := by
  unfold DotAcc.rowProd Cert.Spec.rowSum
  dsimp only [DotAcc.inX, DotAcc.inY, DotAcc.scX, DotAcc.scY]
  refine congrArg₂ (· * ·) ?_ ?_
  · refine Finset.sum_congr rfl fun (k : Fin 2048) _ => ?_
    rw [v3_x, scale_x]
  · refine Finset.sum_congr rfl fun (k : Fin 2048) _ => ?_
    rw [v3_y, scale_y]

theorem dot_total (c : Dev nD) :
    dots m ρ c (ix2 (0 : Fin 16) (0 : Fin 128)) + dots m ρ c (ix2 (8 : Fin 16) (0 : Fin 128)) = Cert.Spec.rowDot (X m c) (Y m c) := by
  have h0 : (outsAt1 (V3 m ρ) c 15 DotFinal.lt15) (ix2 (0 : Fin 8) (0 : Fin 128))
      = 0 + ∑ s ∈ Finset.range 16, Cert.Algebra.tileSum (DotAcc.rowProd (V3 m ρ) c) (0 + s) := DotAcc.cornerD_run (V3 m ρ) c 0 DotFinal.lt15
  have h8 : (outsAt1 (V3 m ρ) c 31 DotFinal.lt31) (ix2 (0 : Fin 8) (0 : Fin 128))
      = 0 + ∑ s ∈ Finset.range 16, Cert.Algebra.tileSum (DotAcc.rowProd (V3 m ρ) c) (16 + s) := DotAcc.cornerD_run (V3 m ρ) c 1 DotFinal.lt31
  have eA : dots m ρ c = (dat1 (V3 m ρ) c).arrAt 4 cfg1.N := (hF1 m ρ c 4).symm
  rw [eA, DotFinal.arrD_0, DotFinal.arrD_8, h0, h8, zero_add, zero_add, Cert.Algebra.sum_two_runs_tiles]
  unfold Cert.Spec.rowDot
  exact Finset.sum_congr rfl fun p _ => rowProd_eq m ρ c p

/-! ## The last host stretch, and the value -/

/-- The result buffer's final contents: the mean of the row-sum products' total, squared. -/
theorem result_rowDot (c : Dev nD) :
    (W5 m ρ c (Proc.devRef .tc main_v26) : Vec Ideal S_ .f32) = fun _ => Cert.Spec.meanSq (Cert.Spec.rowDot (X m c) (Y m c)) := by
  have e : (W5 m ρ c (Proc.devRef .tc main_v26) : Vec Ideal S_ .f32) = HostGlue.meanSqTail (dots m ρ c) := by
    show StableHlo.after hostOps2 (W4 m ρ c) (Proc.devRef .tc main_v26) = _
    after_results
    rfl
  rw [e, HostGlue.meanSqTail_eq, dot_total]
  rfl

/-- On finite inputs the result is the mean of the scaled Gram matrix's total, squared. -/
theorem result_gram (c : Dev nD) (hX : Cert.Spec.Finite (X m c)) (hY : Cert.Spec.Finite (Y m c)) :
    (W5 m ρ c (Proc.devRef .tc main_v26) : Vec Ideal S_ .f32) = fun _ => Cert.Spec.meanSq (Cert.Spec.gramTotal (X m c) (Y m c)) := by
  rw [result_rowDot, Cert.Algebra.rowDot_eq_gramTotal _ _ hX hY]

/-- The kernel program's run with its result stated: on finite inputs every weakly fair execution terminates with the
    result at the mean of the scaled Gram matrix's total, squared, and the arguments unchanged. -/
theorem run (hfin : ∀ c : Dev nD, Cert.Spec.Finite (X m c) ∧ Cert.Spec.Finite (Y m c)) :
    θ_run defs (onTc (τ := τ) (main (F := Ideal))) ⟨m, fun _ => 0, ρ⟩ (fun r => ∀ c : Dev nD,
      r.2.mem ((c.tc : Thread nD τ).loc main_v26) = (fun _ => Cert.Spec.meanSq (Cert.Spec.gramTotal (X m c) (Y m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_gram m ρ c (hfin c).1 (hfin c).2), (h c).2.1, (h c).2.2⟩)
    (KRun.run_result (F := Ideal) m ρ)

end Cert.KernelIdeal.KValue

end
-- ==== Proof.RefSide.lean ====
/-
  The reference program's result as the specification's function of the two flattened inputs.

  The reference reads each input as a matrix of 16384 rows by 2048 columns, divides every entry by its column's scale
  (the square root of the column's sum of squares, plus a small constant), contracts the two scaled matrices over the
  rows into the 2048 by 2048 Gram matrix, totals it, divides the total by the number of entries and squares. Each step
  is read at an index: a column sum from zero is the sum over the rows, a broadcast reads its operand at the column,
  the contraction at `(c, d)` is the sum over the rows of the products, and the total over both axes is the double
  sum over `c` and `d`. Put together, the result is `meanSq (gramTotal X Y)`.

  The second part turns the precondition (every entry's absolute value is below +inf) into "every entry is a real
  number", for the inputs and for their flattened readings.
-/
import proofs.«122433_j8693013807330_2_alg».proof.Proof.Gen.ReferenceIdeal.Read
import proofs.«122433_j8693013807330_2_alg».proof.Proof.Spec
import Idealize.ShloMosaic.Lib.ValueIdx
import Idealize.ShloMosaic.PureOps.Ideal.Laws
import Idealize.ShloMosaic.Lib.ReduceAll
import proofs.«122433_j8693013807330_2_alg».proof.Pre_finite_inputs

noncomputable section

open scoped BigOperators

namespace Cert.ReferenceIdeal.RefSide

open Cert.ReferenceIdeal Cert.ReferenceIdeal.Gen Cert.ReferenceIdeal.Read Idealize.ShloMosaic
  Idealize.ShloMosaic.ValueIdx Idealize.ShloMosaic.StableHlo

/-- An input array: 8 by 256 by 128 by 128 extended reals. -/
abbrev Arg : Type := (⟨S8x256x128x128, .f32⟩ : BufTy).Contents (Elt Ideal)

/-! ## The column scales -/

/-- The first input's row of scales at column `c` is the specification's scale of its flattened reading: the column
    sum from zero is the sum over the rows of the squared entries, then the square root and the small constant. -/
theorem scale_left (x : Arg) (z : Fin 1) (c : Fin 2048) :
    val_main_v11 (F := Ideal) x (ix2 z c) = Cert.Spec.den (val_main_v0 (F := Ideal) x) c := by
  have e : ∀ k : Fin 16384, idx_main_v3 (idx_main_v4 (ix2 z c)) k = ix2 k c := fun k =>
    funext fun a => Fin.ext (by match a with | ⟨0, _⟩ => rfl | ⟨1, _⟩ => rfl)
  rw [val_main_v11_apply, val_main_v5_apply, val_main_v4_apply, val_main_v3_apply, val_main_v10_apply,
    val_main_cst_1_apply, val_main_cst_apply]
  simp only [val_main_v2_apply, e, Ideal.ofBits_def, Ideal.addf_def, Ideal.mulf_def, Ideal.hostUnary_sqrt_def,
    Ideal.ofBits_zero_f32, zero_add]
  rfl

/-- The same for the second input. -/
theorem scale_right (x : Arg) (z : Fin 1) (c : Fin 2048) :
    val_main_v15 (F := Ideal) x (ix2 z c) = Cert.Spec.den (val_main_v1 (F := Ideal) x) c := by
  have e : ∀ k : Fin 16384, idx_main_v7 (idx_main_v8 (ix2 z c)) k = ix2 k c := fun k =>
    funext fun a => Fin.ext (by match a with | ⟨0, _⟩ => rfl | ⟨1, _⟩ => rfl)
  rw [val_main_v15_apply, val_main_v9_apply, val_main_v8_apply, val_main_v7_apply, val_main_v14_apply,
    val_main_cst_2_apply, val_main_cst_0_apply]
  simp only [val_main_v6_apply, e, Ideal.ofBits_def, Ideal.addf_def, Ideal.mulf_def, Ideal.hostUnary_sqrt_def,
    Ideal.ofBits_zero_f32, zero_add]
  rfl

/-! ## The scaled matrices -/

/-- The first scaled matrix at row `p`, column `c`: the entry divided by its column's scale. -/
theorem scaled_left (x : Arg) (p : Fin 16384) (c : Fin 2048) :
    val_main_v13 (F := Ideal) x (ix2 p c)
      = Ideal.div (val_main_v0 (F := Ideal) x (ix2 p c)) (Cert.Spec.den (val_main_v0 (F := Ideal) x) c) := by
  have e : idx_main_v12 (ix2 p c) = ix2 (0 : Fin 1) c :=
    funext fun a => Fin.ext (by match a with | ⟨0, _⟩ => rfl | ⟨1, _⟩ => rfl)
  rw [val_main_v13_apply, val_main_v12_apply, e, scale_left, Ideal.hostDivf_def]

/-- The second scaled matrix at row `p`, column `d`. -/
theorem scaled_right (x : Arg) (p : Fin 16384) (d : Fin 2048) :
    val_main_v17 (F := Ideal) x (ix2 p d)
      = Ideal.div (val_main_v1 (F := Ideal) x (ix2 p d)) (Cert.Spec.den (val_main_v1 (F := Ideal) x) d) := by
  have e : idx_main_v16 (ix2 p d) = ix2 (0 : Fin 1) d :=
    funext fun a => Fin.ext (by match a with | ⟨0, _⟩ => rfl | ⟨1, _⟩ => rfl)
  rw [val_main_v17_apply, val_main_v16_apply, e, scale_right, Ideal.hostDivf_def]

/-! ## The Gram matrix and its total -/

/-- The Gram matrix at `(c, d)`: the sum over the rows of the product of the two scaled entries. -/
theorem gram_entry (x1 x2 : Arg) (c d : Fin 2048) :
    val_main_v18 (F := Ideal) x1 x2 (ix2 c d)
      = ∑ p : Fin 16384,
          Ideal.div (val_main_v0 (F := Ideal) x1 (ix2 p c)) (Cert.Spec.den (val_main_v0 (F := Ideal) x1) c)
            * Ideal.div (val_main_v1 (F := Ideal) x2 (ix2 p d)) (Cert.Spec.den (val_main_v1 (F := Ideal) x2) d) := by
  rw [val_main_v18_apply]
  refine Finset.sum_congr rfl fun k _ => ?_
  have el : lidx_main_v18 (ix2 c d) k = ix2 k c :=
    funext fun a => Fin.ext (by match a with | ⟨0, _⟩ => rfl | ⟨1, _⟩ => rfl)
  have er : ridx_main_v18 (ix2 c d) k = ix2 k d :=
    funext fun a => Fin.ext (by match a with | ⟨0, _⟩ => rfl | ⟨1, _⟩ => rfl)
  rw [el, er, scaled_left, scaled_right]

/-- The total of the Gram matrix from zero is the specification's total of the two flattened readings. -/
theorem gram_total (x1 x2 : Arg) (i : S_.Idx) :
    val_main_v19 (F := Ideal) x1 x2 i
      = Cert.Spec.gramTotal (val_main_v0 (F := Ideal) x1) (val_main_v1 (F := Ideal) x2) := by
  rw [val_main_v19_apply, val_main_cst_3_apply, Ideal.ofBits_def, Ideal.ofBits_zero_f32, zero_add, sum_idx2]
  simp only [gram_entry]
  rfl

/-! ## The result -/

/-- The reference's last stage is the squared mean of the Gram total of the two flattened readings. -/
theorem ref_stage (x1 x2 : Arg) :
    val_main_v21 (F := Ideal) x1 x2
      = fun _ => Cert.Spec.meanSq
          (Cert.Spec.gramTotal (val_main_v0 (F := Ideal) x1) (val_main_v1 (F := Ideal) x2)) := by
  funext i
  rw [val_main_v21_apply, val_main_v20_apply, gram_total, val_main_cst_4_apply, Ideal.ofBits_def, Ideal.mulf_def,
    Ideal.hostDivf_def]
  rfl

/-- The same with the flattened readings written as reshapes of the inputs. -/
theorem ref_result (x1 x2 : Arg) :
    val_main_v21 (F := Ideal) x1 x2
      = fun _ => Cert.Spec.meanSq
          (Cert.Spec.gramTotal
            (shapeCast Cert.ReferenceIdeal.S16384x2048 x1 Cert.ReferenceIdeal.Facts₀.shapeCasts_S8x256x128x128_S16384x2048)
            (shapeCast Cert.ReferenceIdeal.S16384x2048 x2 Cert.ReferenceIdeal.Facts₀.shapeCasts_S8x256x128x128_S16384x2048)) :=
  ref_stage x1 x2

/-! ## Finite entries out of the precondition -/

/-- The word `0x7F800000` is +inf. -/
theorem inf_word : Ideal.ofBits .f32 0x7F800000#32 = (⊤ : EReal) := by
  simp [Ideal.ofBits, Ideal.ieee]

/-- An extended real whose absolute value compares below +inf is a real number: at `⊥` and at `⊤` the larger of
    `x` and `-x` is `⊤`, which is not below itself. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.hostAbsf_def, Ideal.absf_def, Ideal.ofBits_def, inf_word, Ideal.cmpf_def] at h
  induction x using EReal.rec with
  | bot => simp [Ideal.cmp] at h
  | coe r => exact ⟨r, rfl⟩
  | top => simp [Ideal.cmp] at h

/-- The precondition (both inputs pass "every absolute value is below +inf") makes every entry of both inputs a
    real number: the conjunction of the two tests is 1 only if each is, and a test over all axes that comes out 1
    met a 1 at every entry. -/
theorem finite_of_pre [Cert.Pre_finite_inputs.Facts]
    (x1 x2 : (⟨4, ![8, 256, 128, 128]⟩ : Shape).Idx → EReal)
    (h : Cert.Pre_finite_inputs.fn (F := Ideal) x1 x2 = fun _ => 1#1) :
    (∀ i, ∃ r : ℝ, x1 i = (r : EReal)) ∧ (∀ i, ∃ r : ℝ, x2 i = (r : EReal)) := by
  haveI : Subsingleton Cert.Pre_finite_inputs.S_.Idx := ⟨fun a b => funext fun d => d.elim0⟩
  have h0 := congrFun h ix0
  dsimp only [Cert.Pre_finite_inputs.fn] at h0
  obtain ⟨ha, hb⟩ := IntOp.andi_eq_one.1 h0
  exact ⟨fun i => real_of_abs_lt_inf (x1 i) (Host.reduce_andi_all _ _ _ _ _ ha i),
    fun i => real_of_abs_lt_inf (x2 i) (Host.reduce_andi_all _ _ _ _ _ hb i)⟩

/-- A reshape of an array of real entries has real entries: each entry of the reshape is an entry of the array. -/
theorem finite_reshape (x : (⟨4, ![8, 256, 128, 128]⟩ : Shape).Idx → EReal)
    (hx : ∀ i, ∃ r : ℝ, x i = (r : EReal))
    (hc : Shape.ShapeCasts (⟨4, ![8, 256, 128, 128]⟩ : Shape) Cert.Spec.SX) :
    Cert.Spec.Finite (shapeCast Cert.Spec.SX x hc) :=
  fun j => hx (Shape.reshapeEquiv hc j)

end Cert.ReferenceIdeal.RefSide

end
-- ==== Proof.lean ====
/-
  Two programs compute, from two arrays of shape [8, 256, 128, 128] read as matrices X and Y of 16384 rows by 2048
  columns, the squared mean of a Gram matrix: scale every column of X and of Y by 1 / (the column's norm + a small
  constant), form the 2048 by 2048 matrix of inner products of the scaled columns, average its entries, square.

  The reference does exactly that. The kernel uses that the sum of all Gram entries is the sum over the rows p of
  (the sum over c of the scaled X(p, c)) · (the sum over d of the scaled Y(p, d)): one grid of kernel calls accumulates
  the columns' sums of squares (two partial sums per column, one per half of the rows, added on the host), the host
  takes the reciprocal of (square root + constant), a second grid accumulates the products of the scaled row sums
  (again two partial sums, added on the host), and the host divides by the number of entries and squares.

  Over the extended reals the two totals agree when every input entry is finite: the sums are then real sums, a
  division by a positive real is the product with its reciprocal, and a sum over pairs (c, d) of products of a
  c-term and a d-term is the product of the two sums. That is where the precondition is used. The three programs'
  frames are the generated ones (the reference's is its generated run with the result dropped); no operation was
  rewritten by the idealization, so that conjunct is trivial.
-/
import proofs.«122433_j8693013807330_2_alg».proof.Defs
import proofs.«122433_j8693013807330_2_alg».proof.Proof.Gen.Kernel
import proofs.«122433_j8693013807330_2_alg».proof.Proof.Gen.Kernel.Frame
import proofs.«122433_j8693013807330_2_alg».proof.Proof.Gen.KernelIdeal
import proofs.«122433_j8693013807330_2_alg».proof.Proof.Gen.KernelIdeal.Frame
import proofs.«122433_j8693013807330_2_alg».proof.Proof.Gen.ReferenceIdeal
import proofs.«122433_j8693013807330_2_alg».proof.Proof.Gen.ReferenceIdeal.Run
import proofs.«122433_j8693013807330_2_alg».proof.Proof.Gen.ReferenceIdeal.Read
import proofs.«122433_j8693013807330_2_alg».proof.Proof.Gen.Pre_finite_inputs
import proofs.«122433_j8693013807330_2_alg».proof.Proof.KernelValue
import proofs.«122433_j8693013807330_2_alg».proof.Proof.RefSide
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both idealized programs end with the squared mean of the scaled Gram matrix of the same two
    flattened inputs: the kernel by its run read back through its five segments and the algebra of finite sums, the
    reference by its run read operation by operation. -/
theorem algebraic : Cert.algebraic_KernelIdeal_ReferenceIdeal := by
  intro m ρ m' ρ' hpre hagree
  have hfin : ∀ c : Dev Cert.KernelIdeal.nD,
      Cert.Spec.Finite (Cert.KernelIdeal.KValue.X m c) ∧ Cert.Spec.Finite (Cert.KernelIdeal.KValue.Y m c) := fun c => by
    obtain ⟨h1, h2⟩ := Cert.ReferenceIdeal.RefSide.finite_of_pre _ _ (hpre c)
    exact ⟨Cert.ReferenceIdeal.RefSide.finite_reshape _ h1 _, Cert.ReferenceIdeal.RefSide.finite_reshape _ h2 _⟩
  refine ⟨fun c => fun _ => Cert.Spec.meanSq (Cert.Spec.gramTotal (Cert.KernelIdeal.KValue.X m c) (Cert.KernelIdeal.KValue.Y m c)),
    Cert.KernelIdeal.KValue.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.ReferenceIdeal.RefSide.ref_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
